-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S32x64 : Shape := ⟨2, ![32, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S64x32 .f32) (main_arg6 : FVec F S32 .f32) (main_arg7 : FVec F S64x32 .f32) (main_v13 : IVec S_ 1) (main_v16 : IVec S32x64 1) : IVec S_ 1 :=
  let main_c_5 : IVec S_ 1 := constantI S_ 1 1#1
  let main_v17 : IVec S_ 1 := (fun x v => Host.reduce IntOp.andi x v reducesTo_S32x64_S_d0_1 h_S_) main_v16 main_c_5
  let main_v18 : IVec S_ 1 := andi main_v13 main_v17
  let main_v19 : FVec F S64x32 .f32 := Host.absf main_arg5
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S64x32 .f32 := Host.absf main_arg7
  let main_cst_10 : FVec F S_ .f32 := constant S_ .f32 0x7F800000#32
  let main_v30 : FVec F S64x32 .f32 := broadcastInDim S64x32 ![] bcast_S_S64x32 main_cst_10
  let main_v31 : IVec S64x32 1 := cmpf .olt main_v29 main_v30
  let main_c_11 : IVec S_ 1 := constantI S_ 1 1#1
  let main_v32 : IVec S_ 1 := (fun x v => Host.reduce IntOp.andi x v reducesTo_S64x32_S_d0_1 h_S_) main_v31 main_c_11
  let main_v33 : IVec S_ 1 := andi main_v28 main_v32
  main_v33

def fn {F : FTy → Type} [FloatOps F] (main_arg0 : FVec F S100000x32 .f32) (main_arg1 : IVec S2x1600000 32) (main_arg2 : FVec F S32x64 .f32) (main_arg3 : FVec F S64 .f32) (main_arg4 : FVec F S32x64 .f32) (main_arg5 : FVec F S64x32 .f32) (main_arg6 : FVec F S32 .f32) (main_arg7 : FVec F S64x32 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S32x64 .f32 := Host.absf main_arg2
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S32x64 .f32 := Host.absf main_arg4
  let main_cst_4 : FVec F S_ .f32 := constant S_ .f32 0x7F800000#32
  let main_v15 : FVec F S32x64 .f32 := broadcastInDim S32x64 ![] bcast_S_S32x64 main_cst_4
  let main_v16 : IVec S32x64 1 := cmpf .olt main_v14 main_v15
  fn_part1 (F := F) main_arg5 main_arg6 main_arg7 main_v13 main_v16
-- ==== Kernel.lean ====
abbrev S100000x32 : Shape := ⟨2, ![100000, 32]⟩
abbrev S2x1600000 : Shape := ⟨2, ![2, 1600000]⟩
abbrev S32x64 : Shape := ⟨2, ![32, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x32 : Shape := ⟨2, ![1600000, 32]⟩
abbrev S100000x1 : Shape := ⟨2, ![100000, 1]⟩
abbrev S1x64 : Shape := ⟨2, ![1, 64]⟩
abbrev S100000x64 : Shape := ⟨2, ![100000, 64]⟩
abbrev S4000x32 : Shape := ⟨2, ![4000, 32]⟩
abbrev S4000x64 : Shape := ⟨2, ![4000, 64]⟩
abbrev S1x32 : Shape := ⟨2, ![1, 32]⟩

abbrev nBuf : Space → Nat
  | .hbm => 61
  | .vmem => 20
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S32x64, .f32⟩
  | .hbm, ⟨3, _⟩ => ⟨S64, .f32⟩
  | .hbm, ⟨4, _⟩ => ⟨S32x64, .f32⟩
  | .hbm, ⟨5, _⟩ => ⟨S64x32, .f32⟩
  | .hbm, ⟨6, _⟩ => ⟨S32, .f32⟩
  | .hbm, ⟨7, _⟩ => ⟨S64x32, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000x32, .bf16⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x32, .bf16⟩
  | .hbm, ⟨31, _⟩ => ⟨S1600000x32, .f32⟩
  | .hbm, ⟨32, _⟩ => ⟨S_, .f32⟩
  | .hbm, ⟨33, _⟩ => ⟨S100000x32, .f32⟩
  | .hbm, ⟨34, _⟩ => ⟨S1600000x1, .i32⟩
  | .hbm, ⟨35, _⟩ => ⟨S100000x32, .f32⟩
  | .hbm, ⟨36, _⟩ => ⟨S100000x1, .f32⟩
  | .hbm, ⟨37, _⟩ => ⟨S100000x32, .f32⟩
  | .hbm, ⟨38, _⟩ => ⟨S100000x32, .f32⟩
  | .hbm, ⟨39, _⟩ => ⟨S1x64, .f32⟩
  | .hbm, ⟨40, _⟩ => ⟨S100000x64, .bf16⟩
  | .hbm, ⟨41, _⟩ => ⟨S100000x32, .bf16⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x32, .bf16⟩
  | .hbm, ⟨51, _⟩ => ⟨S1600000x32, .f32⟩
  | .hbm, ⟨52, _⟩ => ⟨S_, .f32⟩
  | .hbm, ⟨53, _⟩ => ⟨S100000x32, .f32⟩
  | .hbm, ⟨54, _⟩ => ⟨S1600000x1, .i32⟩
  | .hbm, ⟨55, _⟩ => ⟨S100000x32, .f32⟩
  | .hbm, ⟨56, _⟩ => ⟨S100000x1, .f32⟩
  | .hbm, ⟨57, _⟩ => ⟨S100000x32, .f32⟩
  | .hbm, ⟨58, _⟩ => ⟨S100000x32, .f32⟩
  | .hbm, ⟨59, _⟩ => ⟨S1x32, .f32⟩
  | .hbm, ⟨60, _⟩ => ⟨S100000x32, .f32⟩
  | .local _ .vmem, ⟨0, _⟩ => ⟨S4000x32, .f32⟩
  | .local _ .vmem, ⟨1, _⟩ => ⟨S4000x32, .f32⟩
  | .local _ .vmem, ⟨2, _⟩ => ⟨S4000x32, .f32⟩
  | .local _ .vmem, ⟨3, _⟩ => ⟨S4000x32, .f32⟩
  | .local _ .vmem, ⟨4, _⟩ => ⟨S32x64, .f32⟩
  | .local _ .vmem, ⟨5, _⟩ => ⟨S1x64, .f32⟩
  | .local _ .vmem, ⟨6, _⟩ => ⟨S32x64, .f32⟩
  | .local _ .vmem, ⟨7, _⟩ => ⟨S64x32, .f32⟩
  | .local _ .vmem, ⟨8, _⟩ => ⟨S4000x64, .bf16⟩
  | .local _ .vmem, ⟨9, _⟩ => ⟨S4000x64, .bf16⟩
  | .local _ .vmem, ⟨10, _⟩ => ⟨S4000x32, .bf16⟩
  | .local _ .vmem, ⟨11, _⟩ => ⟨S4000x32, .bf16⟩
  | .local _ .vmem, ⟨12, _⟩ => ⟨S4000x32, .f32⟩
  | .local _ .vmem, ⟨13, _⟩ => ⟨S4000x32, .f32⟩
  | .local _ .vmem, ⟨14, _⟩ => ⟨S4000x64, .bf16⟩
  | .local _ .vmem, ⟨15, _⟩ => ⟨S4000x64, .bf16⟩
  | .local _ .vmem, ⟨16, _⟩ => ⟨S64x32, .f32⟩
  | .local _ .vmem, ⟨17, _⟩ => ⟨S1x32, .f32⟩
  | .local _ .vmem, ⟨18, _⟩ => ⟨S4000x32, .f32⟩
  | .local _ .vmem, ⟨19, _⟩ => ⟨S4000x32, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26_0 : Ref sig .tc := ⟨.hbm, 40, rfl⟩
abbrev main_v26_1 : Ref sig .tc := ⟨.hbm, 41, rfl⟩
abbrev main_c_4 : Ref sig .tc := ⟨.hbm, 42, rfl⟩
abbrev main_v27 : Ref sig .tc := ⟨.hbm, 43, rfl⟩
abbrev main_v28 : Ref sig .tc := ⟨.hbm, 44, rfl⟩
abbrev main_c_5 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg4_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4000x32 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bitsLt_bf16_f32 : FTy.bits .bf16 < FTy.bits .f32
  bcast_S_S100000x32 : S_.BroadcastsInDim S100000x32 (![] : Fin 0 → Fin S100000x32.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  shapeCasts_S64_S1x64 : S64.ShapeCasts S1x64
  inb_S4000x32_S4000x32_0_0 : ∀ a, (![0, 0] : Fin 2 → Nat) a + S4000x32.size a ≤ S4000x32.size a
  h_S4000x32 : 0 < S4000x32.numel
  shapeCasts_S4000x32_S4000x32 : S4000x32.ShapeCasts S4000x32
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S64x32_S64x32_0_0 : ∀ a, (![0, 0] : Fin 2 → Nat) a + S64x32.size a ≤ S64x32.size a
  h_S64x32 : 0 < S64x32.numel
  inb_S4000x64_S4000x64_0_0 : ∀ a, (![0, 0] : Fin 2 → Nat) a + S4000x64.size a ≤ S4000x64.size a
  h_S4000x64 : 0 < S4000x64.numel
  packedbf16_S4000x64_S4000x64_0_0 : (Rect.unit (s := S4000x64) ![0, 0] S4000x64.size inb_S4000x64_S4000x64_0_0).PackedRows (EltTy.packing .bf16)
  packedbf16_S4000x32_S4000x32_0_0 : (Rect.unit (s := S4000x32) ![0, 0] S4000x32.size inb_S4000x32_S4000x32_0_0).PackedRows (EltTy.packing .bf16)
  shapeCasts_S32_S1x32 : S32.ShapeCasts S1x32
  shapeCasts_S4000x64_S4000x64 : S4000x64.ShapeCasts S4000x64
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4000x32 : S1x32.Broadcasts S4000x32
  scatter_S100000_S1600000x1_S1600000_n_0_0_1_wf : ScatterDims.WF S100000 S1600000x1 S1600000 [] [0] [0] 1
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S4000x32_S32x64_S4000x64_1_0_0_1_n_n_wf : DotDims.WF S4000x32 S32x64 S4000x64 [1] [0] [0] [1] [] []
  dot_S4000x64_S64x32_S4000x32_1_0_0_1_n_n_wf : DotDims.WF S4000x64 S64x32 S4000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x32.size a ≤ S100000x32.size a
  hwx0_0 : ∀ i : grid0.Coords, EltTy.bits .f32 = 32 ∨ (Rect.block (s := S100000x32) S4000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x32.size a ≤ S100000x32.size a
  hwx0_1 : ∀ i : grid0.Coords, EltTy.bits .f32 = 32 ∨ (Rect.block (s := S100000x32) S4000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x64.size a ≤ S32x64.size a
  hwx0_2 : ∀ i : grid0.Coords, EltTy.bits .f32 = 32 ∨ (Rect.block (s := S32x64) S32x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x64.size a ≤ S32x64.size a
  hwx0_4 : ∀ i : grid0.Coords, EltTy.bits .f32 = 32 ∨ (Rect.block (s := S32x64) S32x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x32.size a ≤ S64x32.size a
  hwx0_5 : ∀ i : grid0.Coords, EltTy.bits .f32 = 32 ∨ (Rect.block (s := S64x32) S64x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x64.size a ≤ S100000x64.size a
  hwx0_6 : ∀ i : grid0.Coords, EltTy.bits .bf16 = 32 ∨ (Rect.block (s := S100000x64) S4000x64.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x32.size a ≤ S100000x32.size a
  hwx0_7 : ∀ i : grid0.Coords, EltTy.bits .bf16 = 32 ∨ (Rect.block (s := S100000x32) S4000x32.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x32.size a ≤ S100000x32.size a
  hwx1_0 : ∀ i : grid1.Coords, EltTy.bits .f32 = 32 ∨ (Rect.block (s := S100000x32) S4000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x64.size a ≤ S100000x64.size a
  hwx1_1 : ∀ i : grid1.Coords, EltTy.bits .bf16 = 32 ∨ (Rect.block (s := S100000x64) S4000x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x32.size a ≤ S64x32.size a
  hwx1_2 : ∀ i : grid1.Coords, EltTy.bits .f32 = 32 ∨ (Rect.block (s := S64x32) S64x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x32.size a ≤ S100000x32.size a
  hwx1_4 : ∀ i : grid1.Coords, EltTy.bits .f32 = 32 ∨ (Rect.block (s := S100000x32) S4000x32.size (cc1_transform_4 i) (hinb1_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S4000x32_S32x64_S4000x64_1_0_0_1_n_n : DotDims S4000x32 S32x64 S4000x64 where
  lhsContracting := [1]
  rhsContracting := [0]
  lhsNonContracting := [0]
  rhsNonContracting := [1]
  lhsBatch := []
  rhsBatch := []
  wf := dot_S4000x32_S32x64_S4000x64_1_0_0_1_n_n_wf
def dot_S4000x64_S64x32_S4000x32_1_0_0_1_n_n : DotDims S4000x64 S64x32 S4000x32 where
  lhsContracting := [1]
  rhsContracting := [0]
  lhsNonContracting := [0]
  rhsNonContracting := [1]
  lhsBatch := []
  rhsBatch := []
  wf := dot_S4000x64_S64x32_S4000x32_1_0_0_1_n_n_wf

abbrev win0_0 : Pipeline.Window sig grid0 :=
  Pipeline.Window.ofSpec (Memref.whole main_v24) S4000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S32x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26_0) S4000x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v26_1) S4000x32.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v40) S4000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26_0) S4000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S64x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v41) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S4000x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S32x64 : Shape := ⟨2, ![32, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x32 : Shape := ⟨2, ![1600000, 32]⟩
abbrev S100000 : Shape := ⟨1, ![100000]⟩
abbrev S100000x1 : Shape := ⟨2, ![100000, 1]⟩
abbrev S100000x64 : Shape := ⟨2, ![100000, 64]⟩
abbrev S1x64 : Shape := ⟨2, ![1, 64]⟩
abbrev S1600000x64 : Shape := ⟨2, ![1600000, 64]⟩
abbrev S1x32 : Shape := ⟨2, ![1, 32]⟩

abbrev nBuf : Space → Nat
  | .hbm => 77
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S32x64, .f32⟩
  | .hbm, ⟨3, _⟩ => ⟨S64, .f32⟩
  | .hbm, ⟨4, _⟩ => ⟨S32x64, .f32⟩
  | .hbm, ⟨5, _⟩ => ⟨S64x32, .f32⟩
  | .hbm, ⟨6, _⟩ => ⟨S32, .f32⟩
  | .hbm, ⟨7, _⟩ => ⟨S64x32, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x32, .f32⟩
  | .hbm, ⟨21, _⟩ => ⟨S_, .f32⟩
  | .hbm, ⟨22, _⟩ => ⟨S100000x32, .f32⟩
  | .hbm, ⟨23, _⟩ => ⟨S1600000x1, .i32⟩
  | .hbm, ⟨24, _⟩ => ⟨S100000x32, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x32, .f32⟩
  | .hbm, ⟨36, _⟩ => ⟨S100000x32, .f32⟩
  | .hbm, ⟨37, _⟩ => ⟨S100000x64, .f32⟩
  | .hbm, ⟨38, _⟩ => ⟨S1x64, .f32⟩
  | .hbm, ⟨39, _⟩ => ⟨S100000x64, .f32⟩
  | .hbm, ⟨40, _⟩ => ⟨S100000x64, .f32⟩
  | .hbm, ⟨41, _⟩ => ⟨S100000x64, .f32⟩
  | .hbm, ⟨42, _⟩ => ⟨S100000x64, .f32⟩
  | .hbm, ⟨43, _⟩ => ⟨S_, .f32⟩
  | .hbm, ⟨44, _⟩ => ⟨S100000x64, .f32⟩
  | .hbm, ⟨45, _⟩ => ⟨S100000x64, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x64, .f32⟩
  | .hbm, ⟨55, _⟩ => ⟨S_, .f32⟩
  | .hbm, ⟨56, _⟩ => ⟨S100000x64, .f32⟩
  | .hbm, ⟨57, _⟩ => ⟨S1600000x1, .i32⟩
  | .hbm, ⟨58, _⟩ => ⟨S100000x64, .f32⟩
  | .hbm, ⟨59, _⟩ => ⟨S_, .f32⟩
  | .hbm, ⟨60, _⟩ => ⟨S1600000, .f32⟩
  | .hbm, ⟨61, _⟩ => ⟨S_, .f32⟩
  | .hbm, ⟨62, _⟩ => ⟨S100000, .f32⟩
  | .hbm, ⟨63, _⟩ => ⟨S1600000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x64, .f32⟩
  | .hbm, ⟨70, _⟩ => ⟨S100000x64, .f32⟩
  | .hbm, ⟨71, _⟩ => ⟨S100000x32, .f32⟩
  | .hbm, ⟨72, _⟩ => ⟨S1x32, .f32⟩
  | .hbm, ⟨73, _⟩ => ⟨S100000x32, .f32⟩
  | .hbm, ⟨74, _⟩ => ⟨S100000x32, .f32⟩
  | .hbm, ⟨75, _⟩ => ⟨S100000x32, .f32⟩
  | .hbm, ⟨76, _⟩ => ⟨S100000x32, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x32 : S_.BroadcastsInDim S100000x32 (![] : Fin 0 → Fin S100000x32.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  scatter_S100000_S1600000x1_S1600000_n_0_0_1_wf : ScatterDims.WF S100000 S1600000x1 S1600000 [] [0] [0] 1
  dot_S100000x32_S32x64_S100000x64_1_0_0_1_n_n_wf : DotDims.WF S100000x32 S32x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x32_S100000x32_1_0_0_1_n_n_wf : DotDims.WF S100000x64 S64x32 S100000x32 [1] [0] [0] [1] [] []

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf

class Facts : Prop extends Facts₀ where

variable [Facts]
-- ==== Proof.KernelRun.lean ====
/-
  The idealized kernel's run, with its result read.

  The program is two kernel regions among stretches of host operations. Every weakly fair execution terminates without a
  fault; the final memory holds, in every buffer that outlives the regions, the contents obtained by folding the host
  operations and the regions' write-backs over the launch memory. Here that final memory is read at the result buffer
  as well as at the eight arguments: the result is the last fold at the result's buffer, and the arguments are as
  launched.
-/
import proofs.«111328_j38869454028882_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates, nothing faulting, with the
    result buffer at the last boundary's contents and the argument arrays as launched. -/
theorem run : θ_run defs (onTc (τ := τ) (main (F := F))) ⟨m, fun _ => 0, ρ⟩ (fun r => ∀ c : Dev nD,
      r.2.mem ((c.tc : Thread nD τ).loc main_v42) = W4 m ρ c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v42 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Run

end
-- ==== Proof.LibPlainDot.lean ====
/-
  A plain matrix product read at an index, on the extended reals.

  For dimension numbers that contract the left operand's second axis against the right operand's
  first, with no batch axes (an `M×K` matrix times a `K×N` matrix), entry `(p, c)` of the product is
  `Σ_{q < K} l[p, q] · r[q, c]`. The library states a product as a sum over the contraction shape's
  multi-indices; here that sum is re-indexed by the one contracted coordinate, once, for every record
  of this form and every extent.
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat} (d : DotDims ⟨2, ![M, K]⟩ ⟨2, ![K, N]⟩ ⟨2, ![M, N]⟩)

/-- The dimension numbers of a plain product: contract left axis 1 with right axis 0, keep left axis 0 and
    right axis 1 in that order, no batch axes. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

/-- The contraction shape has one axis. -/
theorem contr_rank (h : IsPlain d) : d.contr.rank = 1 := by rw [d.rank_contr, h.lc]; rfl

/-- That axis has the shared extent `K`. -/
theorem contr_size (h : IsPlain d) : d.contr.size ⟨0, by rw [contr_rank h]; exact Nat.one_pos⟩ = K := by
  rw [d.size_contr 0 (by rw [h.lc]; exact Nat.one_pos), List.getElem_of_eq h.lc]
  rfl

/-- A coordinate of an index depends only on the axis number. -/
private theorem coord_congr {s : Shape} (j : s.Idx) (p q : Nat) (hp : p < s.rank) (hq : q < s.rank) (e : p = q) :
    (j ⟨p, hp⟩).val = (j ⟨q, hq⟩).val := by subst e; rfl

/-- The left operand is read at the result's row. -/
theorem lhs_row (h : IsPlain d) (j : (⟨2, ![M, N]⟩ : Shape).Idx) (k : d.contr.Idx) : (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by rw [h.lb, h.ln]; rfl)

/-- The right operand is read at the result's column. -/
theorem rhs_col (h : IsPlain d) (j : (⟨2, ![M, N]⟩ : Shape).Idx) (k : d.contr.Idx) : (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by rw [h.lb, h.ln, h.rn]; rfl)

/-- The library's sum over contraction multi-indices is the sum over the contracted coordinate. -/
theorem sum_contr (h : IsPlain d) (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k) = ∑ q : Fin K, l (ix2 (j 0) q) * r (ix2 q (j 1)) := by
  have hr : d.contr.rank = 1 := contr_rank h
  have hs : d.contr.size ⟨0, by omega⟩ = K := contr_size h
  rw [← Equiv.sum_comp (contrEquiv1 d K hr hs).symm]
  refine Finset.sum_congr rfl fun q _ => ?_
  have hq := contrEquiv1_symm_val d K hr hs q
  have el : d.lhsIdx j ((contrEquiv1 d K hr hs).symm q) = ix2 (j 0) q := funext fun a => Fin.ext (by
    match a with
    | ⟨0, _⟩ => exact lhs_row h j _
    | ⟨1, _⟩ => exact (d.lhsIdx_val_of_single h.lc j _).trans hq)
  have er : d.rhsIdx j ((contrEquiv1 d K hr hs).symm q) = ix2 q (j 1) := funext fun a => Fin.ext (by
    match a with
    | ⟨0, _⟩ => exact (d.rhsIdx_val_of_single h.rc j _).trans hq
    | ⟨1, _⟩ => exact rhs_col h j _)
  rw [el, er]
  rfl

/-- A `tpu.matmul` into a zero accumulator, at entry `(p, c)`. -/
theorem matmul_zero_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    matmul d prec l r (constant ⟨2, ![M, N]⟩ .f32 0x00000000#32) (ix2 p c) = ∑ q : Fin K, l (ix2 p q) * r (ix2 q c) :=
  (Ideal.matmul_constant_zero_apply d prec l r (ix2 p c)).trans (sum_contr h l r (ix2 p c))

/-- The host's `dot_general`, at entry `(p, c)`. -/
theorem dotGeneral_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    Host.dotGeneral d prec l r (ix2 p c) = ∑ q : Fin K, l (ix2 p q) * r (ix2 q c) :=
  (Ideal.dotGeneral_apply d prec .single l r (ix2 p c)).trans (sum_contr h l r (ix2 p c))

end Cert.PlainDot

end
-- ==== Proof.Payload.lean ====
/-
  The two kernel bodies' arithmetic, read at one entry, on the extended reals.

  The first body takes a block of 4000 rows of the aggregated features `a` and of the features `x`, the weights `Wl`,
  `Wr` (32×64) and `Vl` (64×32) and the bias row `b` (1×64). It stores the hidden rows
  `h[p, j] = max((Σ_k a[p,k]·Wl[k,j] + Σ_k x[p,k]·Wr[k,j]) + b[0,j], 0)` and their projection `Σ_j h[p,j]·Vl[j,c]`.
  The second body takes a block of the hidden rows `h`, of the aggregated projection `g`, the weights `Vr` (64×32) and
  the bias row `b'` (1×32), and stores `(Σ_j h[p,j]·Vr[j,c] + g[p,c]) + b'[0,c]`. A change of float format is the identity
  on the extended reals, and a matrix product into a zero accumulator is the plain sum over the contracted coordinate.
-/
import proofs.«111328_j38869454028882_2_alg».proof.Proof.Gen.KernelIdeal.Skeleton
import proofs.«111328_j38869454028882_2_alg».proof.Proof.LibPlainDot
import Idealize.ShloMosaic.Lib.Pipeline.Value
import Idealize.ShloMosaic.Lib.ValueIdx

noncomputable section

open scoped BigOperators

namespace Cert.KernelIdeal.Pay

open Cert.KernelIdeal Cert.KernelIdeal.Gen Idealize.ShloMosaic Idealize.ShloMosaic.ValueIdx

variable [Cert.KernelIdeal.Facts]

/-- A one-row matrix repeated down `R` rows holds its entry `c` at every position `(p, c)`. -/
theorem rows_of_row {α : Type} {R C : Nat} (hC : C ≠ 1) (v : (⟨2, ![1, C]⟩ : Shape).Idx → α)
    (hb : (⟨2, ![1, C]⟩ : Shape).Broadcasts ⟨2, ![R, C]⟩) (p : Fin R) (c : Fin C) :
    broadcastTo ⟨2, ![R, C]⟩ v hb (ix2 p c) = v (ix2 (0 : Fin 1) c) :=
  broadcastTo_apply _ hb (ix2 p c) (ix2 (0 : Fin 1) c) (fun a => by
    match a with
    | ⟨0, _⟩ => show (0 : ℕ) = if (1 : ℕ) = 1 then 0 else _; rw [if_pos rfl]
    | ⟨1, _⟩ => show c.val = if C = 1 then 0 else c.val; rw [if_neg hC])

theorem plain_32_64 : Cert.PlainDot.IsPlain dot_S4000x32_S32x64_S4000x64_1_0_0_1_n_n := ⟨rfl, rfl, rfl, rfl, rfl, rfl⟩
theorem plain_64_32 : Cert.PlainDot.IsPlain dot_S4000x64_S64x32_S4000x32_1_0_0_1_n_n := ⟨rfl, rfl, rfl, rfl, rfl, rfl⟩

/-- The hidden rows the first body stores, at row `p` of the block and column `j`. -/
theorem pay1_apply (a x : Vec Ideal S4000x32 .f32) (Wl Wr : Vec Ideal S32x64 .f32) (b : Vec Ideal S1x64 .f32)
    (p : Fin 4000) (j : Fin 64) :
    k0_pay1 a x Wl Wr b (ix2 p j)
      = max ((∑ k : Fin 32, a (ix2 p k) * Wl (ix2 k j) + ∑ k : Fin 32, x (ix2 p k) * Wr (ix2 k j)) + b (ix2 (0 : Fin 1) j))
          (Ideal.ofBits .f32 0x00000000#32) := by
  unfold k0_pay1
  show max ((matmul (F := Ideal) dot_S4000x32_S32x64_S4000x64_1_0_0_1_n_n none _ _ _ (ix2 p j)
      + matmul (F := Ideal) dot_S4000x32_S32x64_S4000x64_1_0_0_1_n_n none _ _ _ (ix2 p j))
      + broadcastTo S4000x64 _ broadcasts_S1x64_S4000x64 (ix2 p j)) _ = _
  rw [Cert.PlainDot.matmul_zero_apply plain_32_64, Cert.PlainDot.matmul_zero_apply plain_32_64,
    rows_of_row (by decide), shapeCast_self, shapeCast_self]
  rfl

/-- The projected rows the first body stores, at row `p` of the block and column `c`. -/
theorem pay2_apply (a x : Vec Ideal S4000x32 .f32) (Wl Wr : Vec Ideal S32x64 .f32) (b : Vec Ideal S1x64 .f32)
    (Vl : Vec Ideal S64x32 .f32) (p : Fin 4000) (c : Fin 32) :
    k0_pay2 a x Wl Wr b Vl (ix2 p c) = ∑ j : Fin 64, k0_pay1 a x Wl Wr b (ix2 p j) * Vl (ix2 j c) := by
  unfold k0_pay2
  show matmul (F := Ideal) dot_S4000x64_S64x32_S4000x32_1_0_0_1_n_n none _ _ _ (ix2 p c) = _
  rw [Cert.PlainDot.matmul_zero_apply plain_64_32]
  rfl

/-- The rows the second body stores, at row `p` of the block and column `c`. -/
theorem pay_out_apply (h : Vec Ideal S4000x64 .bf16) (Vr : Vec Ideal S64x32 .f32) (g : Vec Ideal S4000x32 .f32)
    (b' : Vec Ideal S1x32 .f32) (p : Fin 4000) (c : Fin 32) :
    k1_pay1 h Vr g b' (ix2 p c)
      = (∑ j : Fin 64, h (ix2 p j) * Vr (ix2 j c) + g (ix2 p c)) + b' (ix2 (0 : Fin 1) c) := by
  unfold k1_pay1
  show (matmul (F := Ideal) dot_S4000x64_S64x32_S4000x32_1_0_0_1_n_n none _ _ _ (ix2 p c) + shapeCast S4000x32 g _ (ix2 p c))
      + broadcastTo S4000x32 _ broadcasts_S1x32_S4000x32 (ix2 p c) = _
  rw [Cert.PlainDot.matmul_zero_apply plain_64_32, rows_of_row (by decide), shapeCast_self, shapeCast_self, shapeCast_self]
  rfl

end Cert.KernelIdeal.Pay

end
-- ==== Proof.Region0.lean ====
/-
  The first kernel region's two output arrays as whole-array functions of the arrays the region finds.

  The region walks 25 grid points; at point `t` it reads rows `4000·t … 4000·t + 3999` of the aggregated features and of
  the features, the whole of the weights and of the bias row, and writes back the same rows of the hidden array and of
  its projection. So row `r` of either output depends only on row `r` of the two row-blocked inputs: each output array is
  one function of the input arrays, entry by entry, and the 25 blocks of 4000 rows cover its 100000 rows.
-/
import proofs.«111328_j38869454028882_2_alg».proof.Proof.Gen.KernelIdeal.Frame
import proofs.«111328_j38869454028882_2_alg».proof.Proof.Payload
import Idealize.ShloMosaic.Lib.Pipeline.Value
import Idealize.ShloMosaic.Lib.ValueIdx

set_option maxRecDepth 16384

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The hidden array: `max((a·Wl + x·Wr) + b, 0)`, entry by entry. -/
def hidArr (a x : S100000x32.Idx → EReal) (Wl Wr : S32x64.Idx → EReal) (b : S1x64.Idx → EReal) : S100000x64.Idx → EReal :=
  fun i => max ((∑ k : Fin 32, a (ix2 (i 0 : Fin 100000) k) * Wl (ix2 k (i 1 : Fin 64))
      + ∑ k : Fin 32, x (ix2 (i 0 : Fin 100000) k) * Wr (ix2 k (i 1 : Fin 64))) + b (ix2 (0 : Fin 1) (i 1 : Fin 64)))
    (Ideal.ofBits .f32 0x00000000#32)

/-- The projected array: each hidden row times `Vl`. -/
def projArr (h : S100000x64.Idx → EReal) (Vl : S64x32.Idx → EReal) : S100000x32.Idx → EReal :=
  fun i => ∑ j : Fin 64, h (ix2 (i 0 : Fin 100000) j) * Vl (ix2 j (i 1 : Fin 32))

theorem hidArr_apply (a x : S100000x32.Idx → EReal) (Wl Wr : S32x64.Idx → EReal) (b : S1x64.Idx → EReal) (r : Fin 100000) (j : Fin 64) :
    hidArr a x Wl Wr b (ix2 r j)
      = max ((∑ k : Fin 32, a (ix2 r k) * Wl (ix2 k j) + ∑ k : Fin 32, x (ix2 r k) * Wr (ix2 k j)) + b (ix2 (0 : Fin 1) j))
          (Ideal.ofBits .f32 0x00000000#32) := rfl

theorem projArr_apply (h : S100000x64.Idx → EReal) (Vl : S64x32.Idx → EReal) (r : Fin 100000) (k : Fin 32) :
    projArr h Vl (ix2 r k) = ∑ j : Fin 64, h (ix2 r j) * Vl (ix2 j k) := rfl

/-- The region's index maps over its 25 points: the row-blocked windows sit at block `t`, the others at block 0. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- A row of a row-blocked 32-wide input block is the array's row `4000·t + p`. -/
theorem blk0_0 (c : Dev nD) (t : Fin cfg0.N) (p : Fin 4000) (k : Fin 32) (r : Fin 100000) (hr : r.val = t.val * 4000 + p.val) :
    iblk0 V c 0 t (ix2 p k) = V c main_v24 (ix2 r k) := by
  obtain ⟨e0, e1, -⟩ := idx0 t
  unfold iblk0
  rw [View.read_apply]
  show V c main_v24 (((cfg0.win 0).blk t).view.emb (ix2 p k)) = V c main_v24 (ix2 r k)
  refine congrArg _ (funext fun a => Fin.ext ?_)
  match a with
  | ⟨0, _⟩ => show win0_0.index t (0 : Fin 2) * 4000 + 1 * p.val = r.val; omega
  | ⟨1, _⟩ => show win0_0.index t (1 : Fin 2) * 32 + 1 * k.val = k.val; omega

/-- The same for the features' block. -/
theorem blk0_1 (c : Dev nD) (t : Fin cfg0.N) (p : Fin 4000) (k : Fin 32) (r : Fin 100000) (hr : r.val = t.val * 4000 + p.val) :
    iblk0 V c 1 t (ix2 p k) = V c main_arg0 (ix2 r k) := by
  obtain ⟨-, -, e0, e1, -⟩ := idx0 t
  unfold iblk0
  rw [View.read_apply]
  show V c main_arg0 (((cfg0.win 1).blk t).view.emb (ix2 p k)) = V c main_arg0 (ix2 r k)
  refine congrArg _ (funext fun a => Fin.ext ?_)
  match a with
  | ⟨0, _⟩ => show win0_1.index t (0 : Fin 2) * 4000 + 1 * p.val = r.val; omega
  | ⟨1, _⟩ => show win0_1.index t (1 : Fin 2) * 32 + 1 * k.val = k.val; omega

/-- The weights' and the bias row's blocks are the whole arrays at every point. -/
theorem blk0_2 (c : Dev nD) (t : Fin cfg0.N) (k : Fin 32) (j : Fin 64) : iblk0 V c 2 t (ix2 k j) = V c main_arg2 (ix2 k j) := by
  obtain ⟨-, -, -, -, e0, e1, -⟩ := idx0 t
  unfold iblk0
  rw [View.read_apply]
  show V c main_arg2 (((cfg0.win 2).blk t).view.emb (ix2 k j)) = V c main_arg2 (ix2 k j)
  refine congrArg _ (funext fun a => Fin.ext ?_)
  match a with
  | ⟨0, _⟩ => show win0_2.index t (0 : Fin 2) * 32 + 1 * k.val = k.val; omega
  | ⟨1, _⟩ => show win0_2.index t (1 : Fin 2) * 64 + 1 * j.val = j.val; omega

theorem blk0_3 (c : Dev nD) (t : Fin cfg0.N) (u : Fin 1) (j : Fin 64) : iblk0 V c 3 t (ix2 u j) = V c main_v25 (ix2 u j) := by
  obtain ⟨-, -, -, -, -, -, e0, e1, -⟩ := idx0 t
  unfold iblk0
  rw [View.read_apply]
  show V c main_v25 (((cfg0.win 3).blk t).view.emb (ix2 u j)) = V c main_v25 (ix2 u j)
  refine congrArg _ (funext fun a => Fin.ext ?_)
  match a with
  | ⟨0, _⟩ => show win0_3.index t (0 : Fin 2) * 1 + 1 * u.val = u.val; omega
  | ⟨1, _⟩ => show win0_3.index t (1 : Fin 2) * 64 + 1 * j.val = j.val; omega

theorem blk0_4 (c : Dev nD) (t : Fin cfg0.N) (k : Fin 32) (j : Fin 64) : iblk0 V c 4 t (ix2 k j) = V c main_arg4 (ix2 k j) := by
  obtain ⟨-, -, -, -, -, -, -, -, e0, e1, -⟩ := idx0 t
  unfold iblk0
  rw [View.read_apply]
  show V c main_arg4 (((cfg0.win 4).blk t).view.emb (ix2 k j)) = V c main_arg4 (ix2 k j)
  refine congrArg _ (funext fun a => Fin.ext ?_)
  match a with
  | ⟨0, _⟩ => show win0_4.index t (0 : Fin 2) * 32 + 1 * k.val = k.val; omega
  | ⟨1, _⟩ => show win0_4.index t (1 : Fin 2) * 64 + 1 * j.val = j.val; omega

theorem blk0_5 (c : Dev nD) (t : Fin cfg0.N) (j : Fin 64) (k : Fin 32) : iblk0 V c 5 t (ix2 j k) = V c main_arg5 (ix2 j k) := by
  obtain ⟨-, -, -, -, -, -, -, -, -, -, e0, e1, -⟩ := idx0 t
  unfold iblk0
  rw [View.read_apply]
  show V c main_arg5 (((cfg0.win 5).blk t).view.emb (ix2 j k)) = V c main_arg5 (ix2 j k)
  refine congrArg _ (funext fun a => Fin.ext ?_)
  match a with
  | ⟨0, _⟩ => show win0_5.index t (0 : Fin 2) * 64 + 1 * j.val = j.val; omega
  | ⟨1, _⟩ => show win0_5.index t (1 : Fin 2) * 32 + 1 * k.val = k.val; omega

/-- The hidden array as the region computes it from the arrays it finds. -/
abbrev hid0 (c : Dev nD) : S100000x64.Idx → EReal :=
  hidArr (V c main_v24) (V c main_arg0) (V c main_arg2) (V c main_arg4) (V c main_v25)

/-- The body's hidden rows at point `t` are rows `4000·t + p` of the hidden array. -/
theorem hid_blk (c : Dev nD) (t : Fin cfg0.N) (p : Fin 4000) (j : Fin 64) (r : Fin 100000) (hr : r.val = t.val * 4000 + p.val) :
    k0_pay1 (iblk0 V c 0 t) (iblk0 V c 1 t) (iblk0 V c 2 t) (iblk0 V c 4 t) (iblk0 V c 3 t) (ix2 p j) = hid0 V c (ix2 r j) := by
  refine (Pay.pay1_apply (iblk0 V c 0 t) (iblk0 V c 1 t) (iblk0 V c 2 t) (iblk0 V c 4 t) (iblk0 V c 3 t) p j).trans ?_
  rw [hid0, hidArr_apply, blk0_3 V c t]
  refine congrArg₂ max (congrArg₂ (· + ·) (congrArg₂ (· + ·) (Finset.sum_congr rfl fun k _ => ?_) (Finset.sum_congr rfl fun k _ => ?_)) rfl) rfl
  · rw [blk0_0 V c t p k r hr, blk0_2 V c t]
  · rw [blk0_1 V c t p k r hr, blk0_4 V c t]

/-- Where an entry of an output block sits in its array. -/
theorem emb6 (t : Fin cfg0.N) (p : Fin 4000) (j : Fin 64) (r : Fin 100000) (hr : r.val = t.val * 4000 + p.val) :
    ((cfg0.win 6).blk t).view.emb (ix2 p j) = (ix2 r j : S100000x64.Idx) := by
  obtain ⟨-, -, -, -, -, -, -, -, -, -, -, -, e0, e1, -⟩ := idx0 t
  refine funext fun a => Fin.ext ?_
  match a with
  | ⟨0, _⟩ => show win0_6.index t (0 : Fin 2) * 4000 + 1 * p.val = r.val; omega
  | ⟨1, _⟩ => show win0_6.index t (1 : Fin 2) * 64 + 1 * j.val = j.val; omega

theorem emb7 (t : Fin cfg0.N) (p : Fin 4000) (k : Fin 32) (r : Fin 100000) (hr : r.val = t.val * 4000 + p.val) :
    ((cfg0.win 7).blk t).view.emb (ix2 p k) = (ix2 r k : S100000x32.Idx) := by
  obtain ⟨-, -, -, -, -, -, -, -, -, -, -, -, -, -, e0, e1⟩ := idx0 t
  refine funext fun a => Fin.ext ?_
  match a with
  | ⟨0, _⟩ => show win0_7.index t (0 : Fin 2) * 4000 + 1 * p.val = r.val; omega
  | ⟨1, _⟩ => show win0_7.index t (1 : Fin 2) * 32 + 1 * k.val = k.val; omega

/-- The row of the array that row `p` of block `t` is. -/
def rowOf (t : Fin cfg0.N) (p : Fin 4000) : Fin 100000 :=
  ⟨t.val * 4000 + p.val, by
    have h : t.val < 25 := lt_of_lt_of_eq t.isLt N_0
    have := p.isLt
    omega⟩

/-- What point `t` writes back to the hidden array is block `t` of the hidden array. -/
theorem flushed6 (c : Dev nD) (t : Fin cfg0.N) :
    (dat0 V c).flushed 6 t = ((cfg0.win 6).blk t).view.read (Elt Ideal) (hid0 V c) := by
  show (cfg0.win 6).cut (grid0.coords t) ((dat0 V c).after 6 t) = _
  rw [after0_6]
  unfold out0_6
  rw [View.canon_unit_zero hz]
  simp only [View.ld_unit_zero (S := S4000x32) hz, View.ld_unit_zero (S := S32x64) hz, View.ld_unit_zero (S := S1x64) hz]
  funext y
  obtain ⟨p, j, rfl⟩ : ∃ (p : Fin 4000) (j : Fin 64), y = ix2 p j := ⟨y 0, y 1, eq_ix2 y⟩
  rw [View.read_apply, emb6 t p j (rowOf t p) rfl]
  exact hid_blk V c t p j (rowOf t p) rfl

/-- What point `t` writes back to the projected array is block `t` of the projection of the hidden array. -/
theorem flushed7 (c : Dev nD) (t : Fin cfg0.N) :
    (dat0 V c).flushed 7 t = ((cfg0.win 7).blk t).view.read (Elt Ideal) (projArr (hid0 V c) (V c main_arg5)) := by
  show (cfg0.win 7).cut (grid0.coords t) ((dat0 V c).after 7 t) = _
  rw [after0_7]
  unfold out0_7
  rw [View.canon_unit_zero hz]
  simp only [View.ld_unit_zero (S := S4000x32) hz, View.ld_unit_zero (S := S32x64) hz, View.ld_unit_zero (S := S1x64) hz,
    View.ld_unit_zero (S := S64x32) hz]
  funext y
  obtain ⟨p, k, rfl⟩ : ∃ (p : Fin 4000) (k : Fin 32), y = ix2 p k := ⟨y 0, y 1, eq_ix2 y⟩
  rw [View.read_apply, emb7 t p k (rowOf t p) rfl]
  refine (Pay.pay2_apply (iblk0 V c 0 t) (iblk0 V c 1 t) (iblk0 V c 2 t) (iblk0 V c 4 t) (iblk0 V c 3 t) (iblk0 V c 5 t) p k).trans ?_
  rw [projArr_apply]
  refine Finset.sum_congr rfl fun j _ => ?_
  rw [hid_blk V c t p j (rowOf t p) rfl, blk0_5 V c t]

/-- An index of an output array is in point `t`'s block iff each coordinate is in the block's range. -/
theorem mem_blk6 (t : Fin cfg0.N) (i : S100000x64.Idx) :
    i ∈ ((cfg0.win 6).blk t).view.set ↔ ∀ a : Fin 2, win0_6.index t a * S4000x64.size a ≤ (i a).val ∧ (i a).val < win0_6.index t a * S4000x64.size a + S4000x64.size a := by
  show i ∈ ((View.whole main_v26_0).slice (win0_6.rect t)).set ↔ _
  rw [View.set_slice_whole, Rect.mem_set_unit]
  exact Iff.rfl

theorem mem_blk7 (t : Fin cfg0.N) (i : S100000x32.Idx) :
    i ∈ ((cfg0.win 7).blk t).view.set ↔ ∀ a : Fin 2, win0_7.index t a * S4000x32.size a ≤ (i a).val ∧ (i a).val < win0_7.index t a * S4000x32.size a + S4000x32.size a := by
  show i ∈ ((View.whole main_v26_1).slice (win0_7.rect t)).set ↔ _
  rw [View.set_slice_whole, Rect.mem_set_unit]
  exact Iff.rfl

/-- The point whose block holds row `r`. -/
def pointOf (r : Fin 100000) : Fin cfg0.N :=
  ⟨r.val / 4000, lt_of_lt_of_eq (by have := r.isLt; omega : r.val / 4000 < 25) N_0.symm⟩

/-- The 25 blocks of 4000 rows cover the hidden array. -/
theorem cover6 (i : S100000x64.Idx) : ∃ t : Fin cfg0.N, (cfg0.win 6).flush t = true ∧ i ∈ ((cfg0.win 6).blk t).view.set := by
  have h0 : (i 0).val < 100000 := (i 0).isLt
  have h1 : (i 1).val < 64 := (i 1).isLt
  obtain ⟨-, -, -, -, -, -, -, -, -, -, -, -, e0, e1, -⟩ := idx0 (pointOf (i 0))
  have ht : (pointOf (i 0)).val = (i 0).val / 4000 := rfl
  refine ⟨pointOf (i 0), flush0_6 _, (mem_blk6 _ i).mpr fun a => ?_⟩
  match a with
  | ⟨0, _⟩ => show win0_6.index (pointOf (i 0)) (0 : Fin 2) * 4000 ≤ (i 0).val ∧ (i 0).val < win0_6.index (pointOf (i 0)) (0 : Fin 2) * 4000 + 4000; omega
  | ⟨1, _⟩ => show win0_6.index (pointOf (i 0)) (1 : Fin 2) * 64 ≤ (i 1).val ∧ (i 1).val < win0_6.index (pointOf (i 0)) (1 : Fin 2) * 64 + 64; omega

/-- … and the projected array. -/
theorem cover7 (i : S100000x32.Idx) : ∃ t : Fin cfg0.N, (cfg0.win 7).flush t = true ∧ i ∈ ((cfg0.win 7).blk t).view.set := by
  have h0 : (i 0).val < 100000 := (i 0).isLt
  have h1 : (i 1).val < 32 := (i 1).isLt
  obtain ⟨-, -, -, -, -, -, -, -, -, -, -, -, -, -, e0, e1⟩ := idx0 (pointOf (i 0))
  have ht : (pointOf (i 0)).val = (i 0).val / 4000 := rfl
  refine ⟨pointOf (i 0), flush0_7 _, (mem_blk7 _ i).mpr fun a => ?_⟩
  match a with
  | ⟨0, _⟩ => show win0_7.index (pointOf (i 0)) (0 : Fin 2) * 4000 ≤ (i 0).val ∧ (i 0).val < win0_7.index (pointOf (i 0)) (0 : Fin 2) * 4000 + 4000; omega
  | ⟨1, _⟩ => show win0_7.index (pointOf (i 0)) (1 : Fin 2) * 32 ≤ (i 1).val ∧ (i 1).val < win0_7.index (pointOf (i 0)) (1 : Fin 2) * 32 + 32; omega

/-- After the region the hidden array holds `max((a·Wl + x·Wr) + b, 0)` of the arrays the region found … -/
theorem final6 (c : Dev nD) : (dat0 V c).arrAt 6 cfg0.N = hid0 V c :=
  (dat0 V c).arrAt_eq_of_cover 6 (hid0 V c) (fun t _ => flushed6 V c t) cover6

/-- … and the projected array its rows times `Vl`. -/
theorem final7 (c : Dev nD) : (dat0 V c).arrAt 7 cfg0.N = projArr (hid0 V c) (V c main_arg5) :=
  (dat0 V c).arrAt_eq_of_cover 7 (projArr (hid0 V c) (V c main_arg5)) (fun t _ => flushed7 V c t) cover7

end Cert.KernelIdeal.Blocks

end
-- ==== Proof.Region1.lean ====
/-
  The second kernel region's output array as a whole-array function of the arrays the region finds.

  At point `t` of its 25 the region reads rows `4000·t … 4000·t + 3999` of the aggregated projection `g` and of the hidden
  array `h`, the whole of the weights `Vr` and of the bias row `b'`, and writes back the same rows of
  `(h·Vr + g) + b'`. Row `r` of the output depends only on row `r` of the two row-blocked inputs, and the 25 blocks cover
  the 100000 rows.
-/
import proofs.«111328_j38869454028882_2_alg».proof.Proof.Gen.KernelIdeal.Frame
import proofs.«111328_j38869454028882_2_alg».proof.Proof.Payload
import Idealize.ShloMosaic.Lib.Pipeline.Value
import Idealize.ShloMosaic.Lib.ValueIdx

set_option maxRecDepth 16384

noncomputable section

open scoped BigOperators

namespace Cert.KernelIdeal.Blocks1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The output array: `(h·Vr + g) + b'`, entry by entry. -/
def outArr (g : S100000x32.Idx → EReal) (h : S100000x64.Idx → EReal) (Vr : S64x32.Idx → EReal) (b' : S1x32.Idx → EReal) :
    S100000x32.Idx → EReal :=
  fun i => (∑ j : Fin 64, h (ix2 (i 0 : Fin 100000) j) * Vr (ix2 j (i 1 : Fin 32)) + g (ix2 (i 0 : Fin 100000) (i 1 : Fin 32)))
    + b' (ix2 (0 : Fin 1) (i 1 : Fin 32))

theorem outArr_apply (g : S100000x32.Idx → EReal) (h : S100000x64.Idx → EReal) (Vr : S64x32.Idx → EReal) (b' : S1x32.Idx → EReal)
    (r : Fin 100000) (k : Fin 32) :
    outArr g h Vr b' (ix2 r k) = (∑ j : Fin 64, h (ix2 r j) * Vr (ix2 j k) + g (ix2 r k)) + b' (ix2 (0 : Fin 1) k) := rfl

/-- The region's index maps over its 25 points: the row-blocked windows sit at block `t`, the others at block 0. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

theorem blk1_0 (c : Dev nD) (t : Fin cfg1.N) (p : Fin 4000) (k : Fin 32) (r : Fin 100000) (hr : r.val = t.val * 4000 + p.val) :
    iblk1 V c 0 t (ix2 p k) = V c main_v40 (ix2 r k) := by
  obtain ⟨e0, e1, -⟩ := idx1 t
  unfold iblk1
  rw [View.read_apply]
  show V c main_v40 (((cfg1.win 0).blk t).view.emb (ix2 p k)) = V c main_v40 (ix2 r k)
  refine congrArg _ (funext fun a => Fin.ext ?_)
  match a with
  | ⟨0, _⟩ => show win1_0.index t (0 : Fin 2) * 4000 + 1 * p.val = r.val; omega
  | ⟨1, _⟩ => show win1_0.index t (1 : Fin 2) * 32 + 1 * k.val = k.val; omega

theorem blk1_1 (c : Dev nD) (t : Fin cfg1.N) (p : Fin 4000) (j : Fin 64) (r : Fin 100000) (hr : r.val = t.val * 4000 + p.val) :
    iblk1 V c 1 t (ix2 p j) = V c main_v26_0 (ix2 r j) := by
  obtain ⟨-, -, e0, e1, -⟩ := idx1 t
  unfold iblk1
  rw [View.read_apply]
  show V c main_v26_0 (((cfg1.win 1).blk t).view.emb (ix2 p j)) = V c main_v26_0 (ix2 r j)
  refine congrArg _ (funext fun a => Fin.ext ?_)
  match a with
  | ⟨0, _⟩ => show win1_1.index t (0 : Fin 2) * 4000 + 1 * p.val = r.val; omega
  | ⟨1, _⟩ => show win1_1.index t (1 : Fin 2) * 64 + 1 * j.val = j.val; omega

theorem blk1_2 (c : Dev nD) (t : Fin cfg1.N) (j : Fin 64) (k : Fin 32) : iblk1 V c 2 t (ix2 j k) = V c main_arg7 (ix2 j k) := by
  obtain ⟨-, -, -, -, e0, e1, -⟩ := idx1 t
  unfold iblk1
  rw [View.read_apply]
  show V c main_arg7 (((cfg1.win 2).blk t).view.emb (ix2 j k)) = V c main_arg7 (ix2 j k)
  refine congrArg _ (funext fun a => Fin.ext ?_)
  match a with
  | ⟨0, _⟩ => show win1_2.index t (0 : Fin 2) * 64 + 1 * j.val = j.val; omega
  | ⟨1, _⟩ => show win1_2.index t (1 : Fin 2) * 32 + 1 * k.val = k.val; omega

theorem blk1_3 (c : Dev nD) (t : Fin cfg1.N) (u : Fin 1) (k : Fin 32) : iblk1 V c 3 t (ix2 u k) = V c main_v41 (ix2 u k) := by
  obtain ⟨-, -, -, -, -, -, e0, e1, -⟩ := idx1 t
  unfold iblk1
  rw [View.read_apply]
  show V c main_v41 (((cfg1.win 3).blk t).view.emb (ix2 u k)) = V c main_v41 (ix2 u k)
  refine congrArg _ (funext fun a => Fin.ext ?_)
  match a with
  | ⟨0, _⟩ => show win1_3.index t (0 : Fin 2) * 1 + 1 * u.val = u.val; omega
  | ⟨1, _⟩ => show win1_3.index t (1 : Fin 2) * 32 + 1 * k.val = k.val; omega

/-- The output array as the region computes it from the arrays it finds. -/
abbrev out1 (c : Dev nD) : S100000x32.Idx → EReal :=
  outArr (V c main_v40) (V c main_v26_0) (V c main_arg7) (V c main_v41)

theorem emb4 (t : Fin cfg1.N) (p : Fin 4000) (k : Fin 32) (r : Fin 100000) (hr : r.val = t.val * 4000 + p.val) :
    ((cfg1.win 4).blk t).view.emb (ix2 p k) = (ix2 r k : S100000x32.Idx) := by
  obtain ⟨-, -, -, -, -, -, -, -, e0, e1⟩ := idx1 t
  refine funext fun a => Fin.ext ?_
  match a with
  | ⟨0, _⟩ => show win1_4.index t (0 : Fin 2) * 4000 + 1 * p.val = r.val; omega
  | ⟨1, _⟩ => show win1_4.index t (1 : Fin 2) * 32 + 1 * k.val = k.val; omega

/-- The row of the array that row `p` of block `t` is. -/
def rowOf (t : Fin cfg1.N) (p : Fin 4000) : Fin 100000 :=
  ⟨t.val * 4000 + p.val, by
    have h : t.val < 25 := lt_of_lt_of_eq t.isLt N_1
    have := p.isLt
    omega⟩

/-- What point `t` writes back is block `t` of the output array. -/
theorem flushed4 (c : Dev nD) (t : Fin cfg1.N) :
    (dat1 V c).flushed 4 t = ((cfg1.win 4).blk t).view.read (Elt Ideal) (out1 V c) := by
  show (cfg1.win 4).cut (grid1.coords t) ((dat1 V c).after 4 t) = _
  rw [after1_4]
  unfold out1_4
  rw [View.canon_unit_zero hz]
  simp only [View.ld_unit_zero (S := S4000x32) hz, View.ld_unit_zero (S := S4000x64) hz, View.ld_unit_zero (S := S64x32) hz,
    View.ld_unit_zero (S := S1x32) hz]
  funext y
  obtain ⟨p, k, rfl⟩ : ∃ (p : Fin 4000) (k : Fin 32), y = ix2 p k := ⟨y 0, y 1, eq_ix2 y⟩
  rw [View.read_apply, emb4 t p k (rowOf t p) rfl]
  refine (Pay.pay_out_apply (iblk1 V c 1 t) (iblk1 V c 2 t) (iblk1 V c 0 t) (iblk1 V c 3 t) p k).trans ?_
  rw [out1, outArr_apply, blk1_3 V c t, blk1_0 V c t p k (rowOf t p) rfl]
  refine congrArg₂ (· + ·) (congrArg₂ (· + ·) (Finset.sum_congr rfl fun j _ => ?_) rfl) rfl
  rw [blk1_1 V c t p j (rowOf t p) rfl, blk1_2 V c t]

theorem mem_blk4 (t : Fin cfg1.N) (i : S100000x32.Idx) :
    i ∈ ((cfg1.win 4).blk t).view.set ↔ ∀ a : Fin 2, win1_4.index t a * S4000x32.size a ≤ (i a).val ∧ (i a).val < win1_4.index t a * S4000x32.size a + S4000x32.size a := by
  show i ∈ ((View.whole main_v42).slice (win1_4.rect t)).set ↔ _
  rw [View.set_slice_whole, Rect.mem_set_unit]
  exact Iff.rfl

/-- The point whose block holds row `r`. -/
def pointOf (r : Fin 100000) : Fin cfg1.N :=
  ⟨r.val / 4000, lt_of_lt_of_eq (by have := r.isLt; omega : r.val / 4000 < 25) N_1.symm⟩

/-- The 25 blocks of 4000 rows cover the output array. -/
theorem cover4 (i : S100000x32.Idx) : ∃ t : Fin cfg1.N, (cfg1.win 4).flush t = true ∧ i ∈ ((cfg1.win 4).blk t).view.set := by
  have h0 : (i 0).val < 100000 := (i 0).isLt
  have h1 : (i 1).val < 32 := (i 1).isLt
  obtain ⟨-, -, -, -, -, -, -, -, e0, e1⟩ := idx1 (pointOf (i 0))
  have ht : (pointOf (i 0)).val = (i 0).val / 4000 := rfl
  refine ⟨pointOf (i 0), flush1_4 _, (mem_blk4 _ i).mpr fun a => ?_⟩
  match a with
  | ⟨0, _⟩ => show win1_4.index (pointOf (i 0)) (0 : Fin 2) * 4000 ≤ (i 0).val ∧ (i 0).val < win1_4.index (pointOf (i 0)) (0 : Fin 2) * 4000 + 4000; omega
  | ⟨1, _⟩ => show win1_4.index (pointOf (i 0)) (1 : Fin 2) * 32 ≤ (i 1).val ∧ (i 1).val < win1_4.index (pointOf (i 0)) (1 : Fin 2) * 32 + 32; omega

/-- After the region the output array holds `(h·Vr + g) + b'` of the arrays the region found. -/
theorem final4 (c : Dev nD) : (dat1 V c).arrAt 4 cfg1.N = out1 V c :=
  (dat1 V c).arrAt_eq_of_cover 4 (out1 V c) (fun t _ => flushed4 V c t) cover4

end Cert.KernelIdeal.Blocks1

end
-- ==== Proof.HostK.lean ====
/-
  What the two kernel regions find in the buffers they read.

  Before the first region the host computes, from the edge list, the source rows (negative indices wrapped once by the
  node count), the target rows, the divisors `max(in-degree, 1)`, and the mean of the features over each node's incoming
  edges; it also lays the first bias out as a row. Between the regions it computes the same mean of the projected hidden
  rows the first region wrote, and lays the second bias out as a row. The arguments themselves are never written.
-/
import proofs.«111328_j38869454028882_2_alg».proof.Proof.Gen.KernelIdeal.Frame
import Idealize.ShloMosaic.Lib.StableHlo.Run
import Idealize.ShloMosaic.PureOps.Ideal

set_option maxRecDepth 16384

noncomputable section

namespace Cert.KernelIdeal.Host

open Cert.KernelIdeal Cert.KernelIdeal.Gen Idealize.ShloMosaic Idealize.ShloMosaic.TcCoe Idealize.SL.Sem
open Idealize.ShloMosaic.StableHlo

/-- The target row of every edge, as the scatter reads it: row 1 of the edge list, one index per edge. -/
def dstIdx (ei : IVec S2x1600000 32) : IVec S1600000x1 32 :=
  broadcastInDim S1600000x1 ![0] bcast_S1600000_S1600000x1_0
    (shapeCast S1600000 (extractStridedSlice S1x1600000 ![1, 0] ei slices_S2x1600000_S1x1600000_1_0) shapeCasts_S1x1600000_S1600000)

/-- Row 0 of the edge list: the source row of every edge. -/
def srcRaw (ei : IVec S2x1600000 32) : IVec S1600000 32 :=
  shapeCast S1600000 (extractStridedSlice S1x1600000 ![0, 0] ei slices_S2x1600000_S1x1600000_0_0) shapeCasts_S1x1600000_S1600000

/-- The source row of every edge as the gather reads it: a negative index has the node count added once. -/
def srcIdx (ei : IVec S2x1600000 32) : IVec S1600000x1 32 :=
  broadcastInDim S1600000x1 ![0] bcast_S1600000_S1600000x1_0
    (select (cmpi .slt (srcRaw ei) (broadcastInDim S1600000 ![] bcast_S_S1600000 (constantI S_ 32 0#32)))
      (addi (srcRaw ei) (broadcastInDim S1600000 ![] bcast_S_S1600000 (constantI S_ 32 100000#32))) (srcRaw ei))

/-- The divisors: the in-degree of every node, counted as a scatter-add of ones into zeros, and at least one. -/
def degArr (ei : IVec S2x1600000 32) : FVec Ideal S100000 .f32 :=
  maximumf (Host.scatterAdd scatter_S100000_S1600000x1_S1600000_n_0_0_1
      (broadcastInDim S100000 ![] bcast_S_S100000 (constant S_ .f32 0x00000000#32)) (dstIdx ei)
      (broadcastInDim S1600000 ![] bcast_S_S1600000 (constant S_ .f32 0x3F800000#32)))
    (broadcastInDim S100000 ![] bcast_S_S100000 (constant S_ .f32 0x3F800000#32))

/-- The mean over each node's incoming edges of the rows of a 32-wide table the edges read. -/
def meanArr (ei : IVec S2x1600000 32) (f : FVec Ideal S100000x32 .bf16) : FVec Ideal S100000x32 .f32 :=
  Host.divf (Host.scatterAdd scatter_S100000x32_S1600000x1_S1600000x32_1_0_0_1
      (broadcastInDim S100000x32 ![] bcast_S_S100000x32 (constant S_ .f32 0x00000000#32)) (dstIdx ei)
      (extf .f32 (Host.gather gather_S100000x32_S1600000x1_S1600000x32_1_0_n_n_0_1_132 f (srcIdx ei)) bitsLt_bf16_f32))
    (broadcastInDim S100000x32 ![0, 1] bcast_S100000x1_S100000x32_0_1
      (broadcastInDim S100000x1 ![0] bcast_S100000_S100000x1_0 (degArr ei)))

variable (m : (ℓ : Loc nD τ sig) → Buf (Elt Ideal) ℓ) (ρ : Dev nD → PrngReg)

/-- The first region finds the mean of the features … -/
theorem V1_v24 (c : Dev nD) :
    V1 m ρ c main_v24 = meanArr (m ((c : Thread nD τ).loc main_arg1)) (truncf .bf16 (m ((c : Thread nD τ).loc main_arg0)) bitsLt_bf16_f32) := by
  show StableHlo.after hostOps0 (W0 m ρ c) (Proc.devRef .tc main_v24) = _
  after_results_simp <;> rfl

/-- … the first bias laid out as a row … -/
theorem V1_v25 (c : Dev nD) : V1 m ρ c main_v25 = shapeCast S1x64 (m ((c : Thread nD τ).loc main_arg3)) shapeCasts_S64_S1x64 := by
  show StableHlo.after hostOps0 (W0 m ρ c) (Proc.devRef .tc main_v25) = _
  after_results_simp <;> rfl

/-- … and the arguments as launched. -/
theorem V1_arg0 (c : Dev nD) : V1 m ρ c main_arg0 = m ((c : Thread nD τ).loc main_arg0) := by
  show StableHlo.after hostOps0 (W0 m ρ c) (Proc.devRef .tc main_arg0) = _
  after_results_simp <;> rfl
theorem V1_arg2 (c : Dev nD) : V1 m ρ c main_arg2 = m ((c : Thread nD τ).loc main_arg2) := by
  show StableHlo.after hostOps0 (W0 m ρ c) (Proc.devRef .tc main_arg2) = _
  after_results_simp <;> rfl
theorem V1_arg4 (c : Dev nD) : V1 m ρ c main_arg4 = m ((c : Thread nD τ).loc main_arg4) := by
  show StableHlo.after hostOps0 (W0 m ρ c) (Proc.devRef .tc main_arg4) = _
  after_results_simp <;> rfl
theorem V1_arg5 (c : Dev nD) : V1 m ρ c main_arg5 = m ((c : Thread nD τ).loc main_arg5) := by
  show StableHlo.after hostOps0 (W0 m ρ c) (Proc.devRef .tc main_arg5) = _
  after_results_simp <;> rfl

/-! ## Buffers the first stretch wrote and the second stretch reads again: the first region leaves them alone -/

theorem W2_v1 (c : Dev nD) : W2 m ρ c (Proc.devRef .tc main_v1) = srcRaw (m ((c : Thread nD τ).loc main_arg1)) :=
  (W2_of_ne m ρ c main_v1 (by decide)).trans (by
    show StableHlo.after hostOps0 (W0 m ρ c) (Proc.devRef .tc main_v1) = _
    after_results_simp <;> rfl)

theorem W2_v3 (c : Dev nD) : W2 m ρ c (Proc.devRef .tc main_v3)
    = shapeCast S1600000 (extractStridedSlice S1x1600000 ![1, 0] (m ((c : Thread nD τ).loc main_arg1)) slices_S2x1600000_S1x1600000_1_0) shapeCasts_S1x1600000_S1600000 :=
  (W2_of_ne m ρ c main_v3 (by decide)).trans (by
    show StableHlo.after hostOps0 (W0 m ρ c) (Proc.devRef .tc main_v3) = _
    after_results_simp <;> rfl)

theorem W2_v9 (c : Dev nD) : W2 m ρ c (Proc.devRef .tc main_v9) = degArr (m ((c : Thread nD τ).loc main_arg1)) :=
  (W2_of_ne m ρ c main_v9 (by decide)).trans (by
    show StableHlo.after hostOps0 (W0 m ρ c) (Proc.devRef .tc main_v9) = _
    after_results_simp <;> rfl)

theorem W2_arg6 (c : Dev nD) : W2 m ρ c (Proc.devRef .tc main_arg6) = m ((c : Thread nD τ).loc main_arg6) :=
  (W2_of_ne m ρ c main_arg6 (by decide)).trans (by
    show StableHlo.after hostOps0 (W0 m ρ c) (Proc.devRef .tc main_arg6) = _
    after_results_simp <;> rfl)

theorem W2_arg7 (c : Dev nD) : W2 m ρ c (Proc.devRef .tc main_arg7) = m ((c : Thread nD τ).loc main_arg7) :=
  (W2_of_ne m ρ c main_arg7 (by decide)).trans (by
    show StableHlo.after hostOps0 (W0 m ρ c) (Proc.devRef .tc main_arg7) = _
    after_results_simp <;> rfl)

/-! ## What the second region finds -/

/-- The mean of the projected hidden rows the first region wrote … -/
theorem V3_v40 (c : Dev nD) :
    V3 m ρ c main_v40 = meanArr (m ((c : Thread nD τ).loc main_arg1)) (W2 m ρ c (Proc.devRef .tc main_v26_1)) := by
  show StableHlo.after hostOps1 (W2 m ρ c) (Proc.devRef .tc main_v40) = _
  after_results_simp
  rw [W2_v1, W2_v3, W2_v9]
  rfl

/-- … the hidden rows the first region wrote … -/
theorem V3_v26_0 (c : Dev nD) : V3 m ρ c main_v26_0 = W2 m ρ c (Proc.devRef .tc main_v26_0) := by
  show StableHlo.after hostOps1 (W2 m ρ c) (Proc.devRef .tc main_v26_0) = _
  after_results_simp <;> rfl

/-- … the second root weights as launched and the second bias laid out as a row. -/
theorem V3_arg7 (c : Dev nD) : V3 m ρ c main_arg7 = m ((c : Thread nD τ).loc main_arg7) := by
  show StableHlo.after hostOps1 (W2 m ρ c) (Proc.devRef .tc main_arg7) = _
  after_results_simp
  exact W2_arg7 m ρ c

theorem V3_v41 (c : Dev nD) : V3 m ρ c main_v41 = shapeCast S1x32 (m ((c : Thread nD τ).loc main_arg6)) shapeCasts_S32_S1x32 := by
  show StableHlo.after hostOps1 (W2 m ρ c) (Proc.devRef .tc main_v41) = _
  after_results_simp
  rw [W2_arg6]
  rfl

end Cert.KernelIdeal.Host

end
-- ==== Proof.SageSpec.lean ====
/-
  Two layers of neighbour-mean graph convolution over the extended reals, as plain functions of the arrays.

  A graph has `N` nodes and `E` edges. Edge `e` reads the features of node `row e` and, when `lands e n` holds, adds
  them into node `n` (an edge whose target is no node lands nowhere). The in-degree of `n` is the number of edges landing
  on it, and the mean over the neighbours divides the accumulated features by `max(degree, 1)`.

  One layer is `mean(f)·W_l + b + f·W_r`; the first layer is followed by `max(·, 0)`. The second layer can aggregate
  before or after multiplying by `W_l`: the two functions `outAfter` (multiply each node's hidden row by `W_l`, then
  take the mean of the products) and `outBefore` (take the mean of the hidden rows, then multiply) are both stated here;
  that they agree on finite data is the linearity of the mean.
-/
import Idealize.ShloMosaic.PureOps.Ideal
import Idealize.ShloMosaic.Lib.ValueIdx

noncomputable section

open scoped BigOperators

namespace Cert.Sage

open Idealize.ShloMosaic Idealize.ShloMosaic.ValueIdx

/-- The word of the float zero, read on the extended reals. -/
abbrev zeroF : EReal := Ideal.ofBits .f32 0x00000000#32
/-- The word of the float one, read on the extended reals. -/
abbrev oneF : EReal := Ideal.ofBits .f32 0x3F800000#32

variable {N E : Nat} (row : Fin E → Fin N) (lands : Fin E → Fin N → Prop) [∀ n, DecidablePred fun e => lands e n]

/-- The divisor of the mean at node `n`: the number of edges landing on `n`, counted as a sum of ones from zero, and at
    least one. -/
def deg (n : Fin N) : EReal := max (zeroF + ∑ e ∈ Finset.univ.filter (fun e => lands e n), oneF) oneF

/-- The mean over the edges landing on `n` of column `k` of the rows they read. -/
def mean {C : Nat} (f : (⟨2, ![N, C]⟩ : Shape).Idx → EReal) (n : Fin N) (k : Fin C) : EReal :=
  Ideal.div (zeroF + ∑ e ∈ Finset.univ.filter (fun e => lands e n), f (ix2 (row e) k)) (deg lands n)

variable (x : (⟨2, ![N, 32]⟩ : Shape).Idx → EReal)
  (Wl Wr : (⟨2, ![32, 64]⟩ : Shape).Idx → EReal) (b : (⟨1, ![64]⟩ : Shape).Idx → EReal)
  (Vl Vr : (⟨2, ![64, 32]⟩ : Shape).Idx → EReal) (b' : (⟨1, ![32]⟩ : Shape).Idx → EReal)

/-- The hidden layer, the root term added before the bias: `max((mean(x)·Wl + x·Wr) + b, 0)`. -/
def hid (n : Fin N) (j : Fin 64) : EReal :=
  max ((∑ k : Fin 32, mean row lands x n k * Wl (ix2 k j) + ∑ k : Fin 32, x (ix2 n k) * Wr (ix2 k j)) + b (ix1 j)) zeroF

/-- The hidden layer, the bias added before the root term: `max((mean(x)·Wl + b) + x·Wr, 0)`. -/
def hid' (n : Fin N) (j : Fin 64) : EReal :=
  max ((∑ k : Fin 32, mean row lands x n k * Wl (ix2 k j) + b (ix1 j)) + ∑ k : Fin 32, x (ix2 n k) * Wr (ix2 k j)) zeroF

/-- Each node's hidden row times `Vl`. -/
def proj (n : Fin N) (c : Fin 32) : EReal := ∑ j : Fin 64, hid row lands x Wl Wr b n j * Vl (ix2 j c)

/-- The second layer, aggregating the projected rows: `(h·Vr + mean(h·Vl)) + b'`. -/
def outAfter (n : Fin N) (c : Fin 32) : EReal :=
  (∑ j : Fin 64, hid row lands x Wl Wr b n j * Vr (ix2 j c)
    + mean row lands (fun i : (⟨2, ![N, 32]⟩ : Shape).Idx => proj row lands x Wl Wr b Vl (i 0) (i 1)) n c) + b' (ix1 c)

/-- The second layer, aggregating the hidden rows: `(mean(h)·Vl + b') + h·Vr`. -/
def outBefore (n : Fin N) (c : Fin 32) : EReal :=
  (∑ k : Fin 64, mean row lands (fun i : (⟨2, ![N, 64]⟩ : Shape).Idx => hid' row lands x Wl Wr b (i 0) (i 1)) n k * Vl (ix2 k c)
    + b' (ix1 c)) + ∑ j : Fin 64, hid' row lands x Wl Wr b n j * Vr (ix2 j c)

end Cert.Sage

end
-- ==== Proof.LibRowGatherScatter.lean ====
/-
  ROW GATHER AND ROW / VECTOR SCATTER-ADD, READ AT ONE ENTRY (general lemmas: any extents, any element type).

  A table `x : [N, C]` is gathered at `E` start indices `S : [E, 1]` (what `x[src]` lowers to): result row `e` is the
  table's row at `S[e, 0]`, the start index read as a signed integer and clamped into `[0, N − 1]` (`srcRow`):
      gather x S (e, k) = x (srcRow S e, k)                                            (`gather_row_apply`).
  `E` update rows `u : [E, C]` are scatter-added into `x : [N, C]` at scatter indices `D : [E, 1]` (what a segment sum
  lowers to): update row `e` lands on row `n` exactly when `D[e, 0]`, read as a signed integer and NOT clamped, is `n`
  (`Lands D e n`); an update whose index is negative or at least `N` lands nowhere. In exact (extended-real)
  arithmetic the result's entry is the operand's entry plus the sum, over the edges that land there, of their updates:
      scatterAdd x D u (n, k) = x (n, k) + ∑ e with Lands D e n, u (e, k)              (`scatterAdd_row_apply`),
  and the same for `E` scalars scatter-added into a vector `x : [N]` (a degree count):
      scatterAdd x D u (n)    = x (n)    + ∑ e with Lands D e n, u (e)                 (`scatterAdd_vec_apply`).

  The dimension numbers enter through the predicates `IsRowGather`, `IsRowScatter`, `IsVecScatter`, which say what
  the lists of a record are; at a literal record every field equation is `rfl`. Each lemma is first proved for the
  literal record (`rowGatherDims`, `rowScatterDims`, `vecScatterDims`: those lists with an arbitrary proof of their
  conditions) by computing the start, window and offset coordinates axis by axis; the scatter lemmas go through the
  characterisation of the landing index (`resultIdx?_rowDims`: update `(e, c)` lands on `(n, k)` iff `Lands D e n` and
  `c = k`; `resultIdx?_vecDims`: update `e` lands on `n` iff `Lands D e n`) and then re-index the sum over update
  multi-indices by the edge number.
-/
import Idealize.ShloMosaic.PureOps.Ideal
import Idealize.ShloMosaic.Lib.ValueIdx

noncomputable section

open scoped BigOperators

namespace Cert.RowGS

open Idealize.ShloMosaic Idealize.ShloMosaic.ValueIdx

variable {N E C w : Nat}

/-- The row an edge reads: its start index read as a signed integer and clamped into `[0, N − 1]`. -/
def srcRow (hN : 0 < N) (S : IVec ⟨2, ![E, 1]⟩ w) (e : Fin E) : Fin N :=
  ⟨min (S (ix2 e (0 : Fin 1))).toInt.toNat (N - 1), by omega⟩

/-- Edge `e`'s update lands on row `n`: its scatter index read as a signed integer is `n`. -/
abbrev Lands (D : IVec ⟨2, ![E, 1]⟩ w) (e : Fin E) (n : Fin N) : Prop :=
  (D (ix2 e (0 : Fin 1))).toInt = (n.val : Int)

/-- An axis of a rank-2 shape is the first or the second. -/
theorem fin2_cases (a : Fin 2) : a = 0 ∨ a = 1 := by
  match a with
  | ⟨0, _⟩ => exact Or.inl rfl
  | ⟨1, _⟩ => exact Or.inr rfl

/-! ## Gather of whole rows -/

/-- `g` gathers whole rows of an `[N, C]` table at `[E, 1]` start indices: the row axis is collapsed and is the one
    the start index addresses, the column axis is the one offset axis with the full slice `C`, nothing is batched. -/
structure IsRowGather (g : GatherDims ⟨2, ![N, C]⟩ ⟨2, ![E, 1]⟩ ⟨2, ![E, C]⟩) : Prop where
  od : g.offsetDims = [1]
  cs : g.collapsedSliceDims = [0]
  ob : g.operandBatchingDims = []
  sb : g.startIndicesBatchingDims = []
  sim : g.startIndexMap = [0]
  ivd : g.indexVectorDim = 1
  ss : g.sliceSizes = ![1, C]

/-- The row-gather dimension numbers as a literal record (any proof `wf` of their conditions). -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The gather at the literal record, read at `(e, k)`. On the row axis the operand coordinate is the clamped start
    (no batching coordinate; the axis is collapsed, so no offset); on the column axis the start is `0` (the start
    index does not address it) and the offset coordinate is `k`. -/
theorem gather_rowDims_apply {α : Type} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (S : IVec ⟨2, ![E, 1]⟩ w) (e : Fin E) (k : Fin C) :
    Host.gather (rowGatherDims N E C wf) x S (ix2 e k) = x (ix2 (srcRow hN S e) k) := by
  unfold Host.gather
  congr 1
  funext a
  refine Fin.ext ?_
  show (rowGatherDims N E C wf).start (ix2 e k) S a + (rowGatherDims N E C wf).batchCoord (ix2 e k) a
    + (rowGatherDims N E C wf).offCoord (ix2 e k) a = _
  rw [GatherDims.batchCoord_eq_zero _ _ _ List.not_mem_nil]
  rcases fin2_cases a with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    -- the start index of result row `e` is read at `[e, 0]`
    have hsi : (rowGatherDims N E C wf).siIdx (ix2 e k)
        ⟨List.idxOf (0 : Fin 2) (rowGatherDims N E C wf).startIndexMap,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  · unfold GatherDims.start
    rw [dif_neg (show (1 : Fin 2) ∉ (rowGatherDims N E C wf).startIndexMap from
      show (1 : Fin 2) ∉ ([0] : List (Fin 2)) from by decide)]
    unfold GatherDims.offCoord
    rw [dif_pos ((GatherDims.mem_sKept _ _).mpr
      ⟨show (1 : Fin 2) ∉ ([0] : List (Fin 2)) from by decide, List.not_mem_nil⟩)]
    simp only [Nat.add_zero, Nat.zero_add]
    rfl

/-- THE ROW GATHER READ AT `(e, k)`: the table at row `srcRow S e` (the start index `S[e, 0]`, read signed and clamped
    into `[0, N − 1]`), column `k`. -/
theorem gather_row_apply {α : Type} {g : GatherDims ⟨2, ![N, C]⟩ ⟨2, ![E, 1]⟩ ⟨2, ![E, C]⟩} (hg : IsRowGather g)
    (hN : 0 < N) (x : (⟨2, ![N, C]⟩ : Shape).Idx → α) (S : IVec ⟨2, ![E, 1]⟩ w) (e : Fin E) (k : Fin C) :
    Host.gather g x S (ix2 e k) = x (ix2 (srcRow hN S e) k) := by
  obtain ⟨od, cs, ob, sb, sim, ivd, ss, wf⟩ := g
  obtain ⟨h1, h2, h3, h4, h5, h6, h7⟩ := hg
  dsimp only at h1 h2 h3 h4 h5 h6 h7
  subst h1 h2 h3 h4 h5 h6 h7
  exact gather_rowDims_apply hN wf x S e k

/-! ## Scatter-add of rows into an `[N, C]` array -/

/-- `d` scatters `[E, C]` update rows into an `[N, C]` operand at `[E, 1]` scatter indices: the row axis is the
    inserted one and the one the scatter index addresses, the column axis is the one window axis. -/
structure IsRowScatter (d : ScatterDims ⟨2, ![N, C]⟩ ⟨2, ![E, 1]⟩ ⟨2, ![E, C]⟩) : Prop where
  uw : d.updateWindowDims = [1]
  iw : d.insertedWindowDims = [0]
  sd : d.scatterDimsToOperandDims = [0]
  ivd : d.indexVectorDim = 1

/-- The row-scatter dimension numbers as a literal record (any proof `wf` of their conditions). -/
abbrev rowScatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- An operand axis carries a window coordinate exactly when it is not an inserted axis. -/
theorem scatter_mem_sKept {s si u : Shape} (d : ScatterDims s si u) (a : Fin s.rank) :
    a ∈ d.sKept ↔ a ∉ d.insertedWindowDims := by
  simp [ScatterDims.sKept, Shape.kept, List.mem_filter, List.mem_finRange]

section RowScatter
variable (wf : ScatterDims.WF ⟨2, ![N, C]⟩ ⟨2, ![E, 1]⟩ ⟨2, ![E, C]⟩ [1] [0] [0] 1)
  (j : (⟨2, ![E, C]⟩ : Shape).Idx) (D : IVec ⟨2, ![E, 1]⟩ w)

/-- On the row axis the window of update `(e, c)` starts at the scatter index `D[e, 0]`, read signed … -/
theorem rowScatter_start0 :
    (rowScatterDims N E C wf).start j D (0 : Fin 2) = (D (ix2 (j 0) (0 : Fin 1))).toInt := by
  unfold ScatterDims.start
  rw [dif_pos (show (0 : Fin 2) ∈ (rowScatterDims N E C wf).scatterDimsToOperandDims from List.mem_singleton.mpr rfl)]
  have hsi : (rowScatterDims N E C wf).siIdx j
      ⟨List.idxOf (0 : Fin 2) (rowScatterDims N E C wf).scatterDimsToOperandDims,
        List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- … on the column axis, which the scatter index does not address, at `0`. -/
theorem rowScatter_start1 : (rowScatterDims N E C wf).start j D (1 : Fin 2) = 0 := by
  unfold ScatterDims.start
  rw [dif_neg (show (1 : Fin 2) ∉ (rowScatterDims N E C wf).scatterDimsToOperandDims from
    show (1 : Fin 2) ∉ ([0] : List (Fin 2)) from by decide)]

/-- The row axis is inserted: no window coordinate there … -/
theorem rowScatter_window0 : (rowScatterDims N E C wf).window j (0 : Fin 2) = 0 := by
  unfold ScatterDims.window
  rw [dif_neg (fun h => (scatter_mem_sKept _ _).mp h (List.mem_singleton.mpr rfl))]

/-- … and on the column axis the window coordinate of update `(e, c)` is `c`. -/
theorem rowScatter_window1 : (rowScatterDims N E C wf).window j (1 : Fin 2) = (j 1).val := by
  unfold ScatterDims.window
  rw [dif_pos ((scatter_mem_sKept _ _).mpr (show (1 : Fin 2) ∉ ([0] : List (Fin 2)) from by decide))]
  rfl

/-- WHERE AN UPDATE LANDS: update `(e, c)` lands on `(n, k)` iff its scatter index, read signed, is `n` and `c = k`.
    (The landing index is start plus window coordinate on each axis, kept only when in range: on the row axis that
    is `D[e, 0] + 0`, in range iff it is some `n < N`; on the column axis `0 + c`, always in range.) -/
theorem resultIdx?_rowDims (i : (⟨2, ![N, C]⟩ : Shape).Idx) :
    (rowScatterDims N E C wf).resultIdx? j D = some i ↔ Lands D (j 0) (i 0) ∧ (j 1).val = (i 1).val := by
  have hs0 := rowScatter_start0 wf j D
  have hs1 := rowScatter_start1 wf j D
  have hw0 := rowScatter_window0 wf j
  have hw1 := rowScatter_window1 wf j
  have hi0 : (i 0).val < N := idx2_lt0 i
  have hi1 : (i 1).val < C := idx2_lt1 i
  have hj1 : (j 1).val < C := idx2_lt1 j
  unfold ScatterDims.resultIdx?
  constructor
  · intro h
    split at h
    · rename_i hc
      have hf := Option.some.inj h
      have e0 : ((rowScatterDims N E C wf).start j D (0 : Fin 2)
          + ((rowScatterDims N E C wf).window j (0 : Fin 2) : Int)).toNat = (i 0).val :=
        congrArg Fin.val (congrFun hf 0)
      have e1 : ((rowScatterDims N E C wf).start j D (1 : Fin 2)
          + ((rowScatterDims N E C wf).window j (1 : Fin 2) : Int)).toNat = (i 1).val :=
        congrArg Fin.val (congrFun hf 1)
      have c0 := (hc 0).1
      have c1 := (hc 1).1
      rw [hs0, hw0] at e0 c0
      rw [hs1, hw1] at e1 c1
      refine ⟨?_, ?_⟩
      · show (D (ix2 (j 0) (0 : Fin 1))).toInt = ((i 0).val : Int)
        omega
      · omega
    · cases h
  · rintro ⟨hl, h1⟩
    have hl' : (D (ix2 (j 0) (0 : Fin 1))).toInt = ((i 0).val : Int) := hl
    have hc : ∀ a, 0 ≤ (rowScatterDims N E C wf).start j D a + ((rowScatterDims N E C wf).window j a : Int) ∧
        (rowScatterDims N E C wf).start j D a + ((rowScatterDims N E C wf).window j a : Int)
          < ((⟨2, ![N, C]⟩ : Shape).size a : Int) := by
      intro a
      rcases fin2_cases a with rfl | rfl
      · rw [hs0, hw0, hl']
        show 0 ≤ ((i 0).val : Int) + ((0 : Nat) : Int) ∧ ((i 0).val : Int) + ((0 : Nat) : Int) < (N : Int)
        omega
      · rw [hs1, hw1]
        show (0 : Int) ≤ 0 + ((j 1).val : Int) ∧ (0 : Int) + ((j 1).val : Int) < (C : Int)
        omega
    rw [dif_pos hc]
    congr 1
    funext a
    refine Fin.ext ?_
    rcases fin2_cases a with rfl | rfl
    · show ((rowScatterDims N E C wf).start j D (0 : Fin 2)
          + ((rowScatterDims N E C wf).window j (0 : Fin 2) : Int)).toNat = (i 0).val
      rw [hs0, hw0, hl']
      omega
    · show ((rowScatterDims N E C wf).start j D (1 : Fin 2)
          + ((rowScatterDims N E C wf).window j (1 : Fin 2) : Int)).toNat = (i 1).val
      rw [hs1, hw1]
      omega

end RowScatter

section RowScatterSum
variable (wf : ScatterDims.WF ⟨2, ![N, C]⟩ ⟨2, ![E, 1]⟩ ⟨2, ![E, C]⟩ [1] [0] [0] 1)

/-- The row scatter-add at the literal record, read at `(n, k)`: the updates landing on `(n, k)` are the `(e, k)`
    with `Lands D e n`, and `(e, c) ↦ e`, `e ↦ (e, k)` are inverse bijections between the two index sets. -/
theorem scatterAdd_rowDims_apply {φ : FTy} (x : FVec Ideal ⟨2, ![N, C]⟩ φ) (D : IVec ⟨2, ![E, 1]⟩ w)
    (u : FVec Ideal ⟨2, ![E, C]⟩ φ) (n : Fin N) (k : Fin C) :
    Host.scatterAdd (rowScatterDims N E C wf) x D u (ix2 n k)
      = x (ix2 n k) + ∑ e ∈ Finset.univ.filter (fun e : Fin E => Lands D e n), u (ix2 e k) := by
  show Ideal.hostScatterAdd (rowScatterDims N E C wf) x D u (ix2 n k) = _
  unfold Ideal.hostScatterAdd
  congr 1
  refine Finset.sum_nbij' (fun j => (j 0 : Fin E)) (fun e => ix2 e k) ?_ ?_ ?_ ?_ ?_
  · intro j hj
    obtain ⟨a, b, rfl⟩ : ∃ a b, j = ix2 a b := ⟨_, _, eq_ix2 j⟩
    have h := (resultIdx?_rowDims wf (ix2 a b) D (ix2 n k)).mp (Finset.mem_filter.mp hj).2
    exact Finset.mem_filter.mpr ⟨Finset.mem_univ _, h.1⟩
  · intro e he
    have h : Lands D e n := (Finset.mem_filter.mp he).2
    exact Finset.mem_filter.mpr ⟨Finset.mem_univ _, (resultIdx?_rowDims wf (ix2 e k) D (ix2 n k)).mpr ⟨h, rfl⟩⟩
  · intro j hj
    obtain ⟨a, b, rfl⟩ : ∃ a b, j = ix2 a b := ⟨_, _, eq_ix2 j⟩
    have h := (resultIdx?_rowDims wf (ix2 a b) D (ix2 n k)).mp (Finset.mem_filter.mp hj).2
    obtain rfl : b = k := Fin.ext h.2
    rfl
  · intro e _
    rfl
  · intro j hj
    obtain ⟨a, b, rfl⟩ : ∃ a b, j = ix2 a b := ⟨_, _, eq_ix2 j⟩
    have h := (resultIdx?_rowDims wf (ix2 a b) D (ix2 n k)).mp (Finset.mem_filter.mp hj).2
    obtain rfl : b = k := Fin.ext h.2
    rfl

end RowScatterSum

/-- THE ROW SCATTER-ADD READ AT `(n, k)`: the operand's entry plus the sum, over the edges `e` whose scatter index
    (read signed, not clamped) is `n`, of the update entries `u (e, k)`. -/
theorem scatterAdd_row_apply {φ : FTy} {d : ScatterDims ⟨2, ![N, C]⟩ ⟨2, ![E, 1]⟩ ⟨2, ![E, C]⟩} (hd : IsRowScatter d)
    (x : FVec Ideal ⟨2, ![N, C]⟩ φ) (D : IVec ⟨2, ![E, 1]⟩ w) (u : FVec Ideal ⟨2, ![E, C]⟩ φ) (n : Fin N) (k : Fin C) :
    Host.scatterAdd d x D u (ix2 n k)
      = x (ix2 n k) + ∑ e ∈ Finset.univ.filter (fun e : Fin E => Lands D e n), u (ix2 e k) := by
  obtain ⟨uw, iw, sd, ivd, wf⟩ := d
  obtain ⟨h1, h2, h3, h4⟩ := hd
  dsimp only at h1 h2 h3 h4
  subst h1 h2 h3 h4
  exact scatterAdd_rowDims_apply wf x D u n k

/-! ## Scatter-add of scalars into an `[N]` vector -/

/-- `d` scatters `[E]` update scalars into an `[N]` operand at `[E, 1]` scatter indices: the operand's one axis is
    inserted and addressed by the scatter index; the updates have no window axis. -/
structure IsVecScatter (d : ScatterDims ⟨1, ![N]⟩ ⟨2, ![E, 1]⟩ ⟨1, ![E]⟩) : Prop where
  uw : d.updateWindowDims = []
  iw : d.insertedWindowDims = [0]
  sd : d.scatterDimsToOperandDims = [0]
  ivd : d.indexVectorDim = 1

/-- The vector-scatter dimension numbers as a literal record (any proof `wf` of their conditions). -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section VecScatter
variable (wf : ScatterDims.WF ⟨1, ![N]⟩ ⟨2, ![E, 1]⟩ ⟨1, ![E]⟩ [] [0] [0] 1)
  (j : (⟨1, ![E]⟩ : Shape).Idx) (D : IVec ⟨2, ![E, 1]⟩ w)

/-- The window of update `e` starts at the scatter index `D[e, 0]`, read signed … -/
theorem vecScatter_start0 :
    (vecScatterDims N E wf).start j D (0 : Fin 1) = (D (ix2 (j 0) (0 : Fin 1))).toInt := by
  unfold ScatterDims.start
  rw [dif_pos (show (0 : Fin 1) ∈ (vecScatterDims N E wf).scatterDimsToOperandDims from List.mem_singleton.mpr rfl)]
  have hsi : (vecScatterDims N E wf).siIdx j
      ⟨List.idxOf (0 : Fin 1) (vecScatterDims N E wf).scatterDimsToOperandDims,
        List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- … and the operand's axis is inserted: no window coordinate. -/
theorem vecScatter_window0 : (vecScatterDims N E wf).window j (0 : Fin 1) = 0 := by
  unfold ScatterDims.window
  rw [dif_neg (fun h => (scatter_mem_sKept _ _).mp h (List.mem_singleton.mpr rfl))]

/-- WHERE AN UPDATE LANDS: update `e` lands on `n` iff its scatter index, read signed, is `n`. -/
theorem resultIdx?_vecDims (i : (⟨1, ![N]⟩ : Shape).Idx) :
    (vecScatterDims N E wf).resultIdx? j D = some i ↔ Lands D (j 0) (i 0) := by
  have hs0 := vecScatter_start0 wf j D
  have hw0 := vecScatter_window0 wf j
  have hi0 : (i 0).val < N := (i 0).isLt
  unfold ScatterDims.resultIdx?
  constructor
  · intro h
    split at h
    · rename_i hc
      have hf := Option.some.inj h
      have e0 : ((vecScatterDims N E wf).start j D (0 : Fin 1)
          + ((vecScatterDims N E wf).window j (0 : Fin 1) : Int)).toNat = (i 0).val :=
        congrArg Fin.val (congrFun hf 0)
      have c0 := (hc 0).1
      rw [hs0, hw0] at e0 c0
      show (D (ix2 (j 0) (0 : Fin 1))).toInt = ((i 0).val : Int)
      omega
    · cases h
  · intro hl
    have hl' : (D (ix2 (j 0) (0 : Fin 1))).toInt = ((i 0).val : Int) := hl
    have hc : ∀ a, 0 ≤ (vecScatterDims N E wf).start j D a + ((vecScatterDims N E wf).window j a : Int) ∧
        (vecScatterDims N E wf).start j D a + ((vecScatterDims N E wf).window j a : Int)
          < ((⟨1, ![N]⟩ : Shape).size a : Int) := by
      intro a
      obtain rfl : a = (0 : Fin 1) := Subsingleton.elim _ _
      rw [hs0, hw0, hl']
      show 0 ≤ ((i 0).val : Int) + ((0 : Nat) : Int) ∧ ((i 0).val : Int) + ((0 : Nat) : Int) < (N : Int)
      omega
    rw [dif_pos hc]
    congr 1
    funext a
    refine Fin.ext ?_
    obtain rfl : a = (0 : Fin 1) := Subsingleton.elim _ _
    show ((vecScatterDims N E wf).start j D (0 : Fin 1)
        + ((vecScatterDims N E wf).window j (0 : Fin 1) : Int)).toNat = (i 0).val
    rw [hs0, hw0, hl']
    omega

end VecScatter

section VecScatterSum
variable (wf : ScatterDims.WF ⟨1, ![N]⟩ ⟨2, ![E, 1]⟩ ⟨1, ![E]⟩ [] [0] [0] 1)

/-- The vector scatter-add at the literal record, read at `n`: an update index is its one coordinate, the edge
    number, and it lands on `n` iff `Lands D e n`. -/
theorem scatterAdd_vecDims_apply {φ : FTy} (x : FVec Ideal ⟨1, ![N]⟩ φ) (D : IVec ⟨2, ![E, 1]⟩ w)
    (u : FVec Ideal ⟨1, ![E]⟩ φ) (n : Fin N) :
    Host.scatterAdd (vecScatterDims N E wf) x D u (ix1 n)
      = x (ix1 n) + ∑ e ∈ Finset.univ.filter (fun e : Fin E => Lands D e n), u (ix1 e) := by
  show Ideal.hostScatterAdd (vecScatterDims N E wf) x D u (ix1 n) = _
  unfold Ideal.hostScatterAdd
  congr 1
  refine Finset.sum_nbij' (fun j => (j 0 : Fin E)) (fun e => ix1 e) ?_ ?_ ?_ ?_ ?_
  · intro j hj
    obtain ⟨a, rfl⟩ : ∃ a, j = ix1 a := ⟨_, eq_ix1 j⟩
    have h := (resultIdx?_vecDims wf (ix1 a) D (ix1 n)).mp (Finset.mem_filter.mp hj).2
    exact Finset.mem_filter.mpr ⟨Finset.mem_univ _, h⟩
  · intro e he
    have h : Lands D e n := (Finset.mem_filter.mp he).2
    exact Finset.mem_filter.mpr ⟨Finset.mem_univ _, (resultIdx?_vecDims wf (ix1 e) D (ix1 n)).mpr h⟩
  · intro j _
    obtain ⟨a, rfl⟩ : ∃ a, j = ix1 a := ⟨_, eq_ix1 j⟩
    rfl
  · intro e _
    rfl
  · intro j _
    obtain ⟨a, rfl⟩ : ∃ a, j = ix1 a := ⟨_, eq_ix1 j⟩
    rfl

end VecScatterSum

/-- THE VECTOR SCATTER-ADD READ AT `n`: the operand's entry plus the sum, over the edges `e` whose scatter index
    (read signed, not clamped) is `n`, of the update scalars `u (e)`. -/
theorem scatterAdd_vec_apply {φ : FTy} {d : ScatterDims ⟨1, ![N]⟩ ⟨2, ![E, 1]⟩ ⟨1, ![E]⟩} (hd : IsVecScatter d)
    (x : FVec Ideal ⟨1, ![N]⟩ φ) (D : IVec ⟨2, ![E, 1]⟩ w) (u : FVec Ideal ⟨1, ![E]⟩ φ) (n : Fin N) :
    Host.scatterAdd d x D u (ix1 n)
      = x (ix1 n) + ∑ e ∈ Finset.univ.filter (fun e : Fin E => Lands D e n), u (ix1 e) := by
  obtain ⟨uw, iw, sd, ivd, wf⟩ := d
  obtain ⟨h1, h2, h3, h4⟩ := hd
  dsimp only at h1 h2 h3 h4
  subst h1 h2 h3 h4
  exact scatterAdd_vecDims_apply wf x D u n

end Cert.RowGS

end
-- ==== Proof.LibLayout.lean ====
/-
  General lemmas on small layout operations over the extended reals, read at an index.

  * a vector [a] laid out as the row [1, a] or as the column [a, 1], and a column [a, 1] read back as a vector: the entry
    at (0, n), at (r, 0), at r is the vector's (the column's) entry at n, at r, at (r, 0) (the row-major position is the
    same number);
  * a rank-0 constant broadcast over any shape is the splat of its one value;
  * a lane sum: the sum of row r of an [a, 128] array over its 128 lanes, from a zero initial value, as a finite sum.
  None depends on a program.
-/
import Idealize.ShloMosaic.Lib.Pipeline.Value
import Idealize.ShloMosaic.Lib.ValueLayout
import Idealize.ShloMosaic.PureOps.Ideal.Laws

noncomputable section

namespace Cert.Lib

open Idealize.ShloMosaic Idealize.ShloMosaic.ValueIdx

/-- A vector [a] laid out as the row [1, a]: the row's entry at (0, n) is the vector's entry at n (stated for any index
    k of the vector with k 0 = i 1, so that it meets an index function given by cases). -/
theorem bias_row {α : Type} {a : ℕ} (b : (⟨1, ![a]⟩ : Shape).Idx → α)
    (h : (⟨1, ![a]⟩ : Shape).ShapeCasts ⟨2, ![1, a]⟩) (i : (⟨2, ![1, a]⟩ : Shape).Idx)
    (k : (⟨1, ![a]⟩ : Shape).Idx) (hk : (k 0).val = (i 1).val) : shapeCast ⟨2, ![1, a]⟩ b h i = b k :=
  shapeCast_apply b h i k (by
    have h0 : (i 0).val < 1 := (i 0).isLt
    rw [Shape.rowMajor_val_one, Shape.rowMajor_val_two]
    show (k 0).val = (i 0).val * a + (i 1).val
    rw [show (i 0).val = 0 by omega, Nat.zero_mul, Nat.zero_add]
    exact hk)

/-- A vector [a] given a trailing unit axis: the column's entry at (r, 0) is the vector's entry at r. -/
theorem col_of_vec {α : Type} {a : ℕ} (v : (⟨1, ![a]⟩ : Shape).Idx → α)
    (h : (⟨1, ![a]⟩ : Shape).ShapeCasts ⟨2, ![a, 1]⟩) (r : Fin a) (u : Fin 1) :
    shapeCast ⟨2, ![a, 1]⟩ v h (ix2 r u) = v (ix1 r) :=
  shapeCast_apply v h _ _ (by
    have hu : u.val = 0 := by omega
    rw [Shape.rowMajor_val_two, Shape.rowMajor_val_one]
    show r.val = r.val * 1 + u.val
    rw [hu, Nat.mul_one, Nat.add_zero])

/-- A column [a, 1] with its unit axis dropped: the vector's entry at r is the column's entry at (r, 0). -/
theorem vec_of_col {α : Type} {a : ℕ} (v : (⟨2, ![a, 1]⟩ : Shape).Idx → α)
    (h : (⟨2, ![a, 1]⟩ : Shape).ShapeCasts ⟨1, ![a]⟩) (r : Fin a) :
    shapeCast ⟨1, ![a]⟩ v h (ix1 r) = v (ix2 r (0 : Fin 1)) :=
  shapeCast_apply v h _ _ (by
    rw [Shape.rowMajor_val_two, Shape.rowMajor_val_one]
    show r.val * 1 + 0 = r.val
    rw [Nat.mul_one, Nat.add_zero])

/-- A rank-0 constant broadcast over a shape is the splat of its one value. -/
theorem splat_eq {s : Shape} (h : (⟨0, ![]⟩ : Shape).BroadcastsInDim s ![]) (z : BitVec 32) :
    (broadcastInDim s ![] h (constant (F := Ideal) ⟨0, ![]⟩ .f32 z) : FVec Ideal s .f32)
      = broadcast s (Scalar.ofBits (F := Ideal) .f32 z) := by
  funext i
  exact broadcastInDim_apply (s := ⟨0, ![]⟩) ![] h (constant (F := Ideal) ⟨0, ![]⟩ .f32 z) i (fun a => a.elim0)
    (fun a => a.elim0)

/-- The sum of row r of an [a, 128] array over its 128 lanes, from a zero initial value (stated with the proofs the
    operation carries as variables: a printed operation's own proofs then meet it by proof irrelevance in term mode). -/
theorem lane_sum {a : ℕ} (v : FVec Ideal ⟨2, ![a, 128]⟩ .f32) (h : (⟨2, ![a, 128]⟩ : Shape).Reduces [1] ⟨1, ![a]⟩)
    (hφ : FKind.Formats .f32) (hacc : (0x00000000#32 : BitVec (FTy.f32).bits) = FKind.add.neutral .f32 hφ) (r : Fin a) :
    multiReduction .add [1] ⟨1, ![a]⟩ v 0x00000000#32 h hφ hacc (ix1 r) = ∑ k : Fin 128, v (ix2 r k) :=
  (Ideal.multiReduction_add_single v 0x00000000#32 h hφ hacc (ix1 r)).trans
    (Finset.sum_congr rfl fun k _ => congrArg v (funext fun c => Fin.ext (by
      match c with
      | ⟨0, _⟩ => rfl
      | ⟨1, _⟩ => rfl)))

end Cert.Lib

end
-- ==== Proof.SageOps.lean ====
/-
  The host's neighbour-mean, read at one entry.

  The host computes the mean over each node's incoming edges as a divide of a scatter-add (of gathered rows into zeros)
  by the divisors broadcast along the rows; the divisors are `max(scatter-add of ones into zeros, 1)`. Read at node `n`
  and column `k` these are the specification's `mean` and `deg`: the scatter-add is the sum over the edges landing on
  `n`, the gather reads the row an edge names, and a scalar broadcast over any shape is its one value everywhere.
  Also two small layout facts: a vector broadcast down the columns reads its entry at the row, and a vector laid out as a
  row and repeated down the rows reads its entry at the column.
-/
import proofs.«111328_j38869454028882_2_alg».proof.Proof.SageSpec
import proofs.«111328_j38869454028882_2_alg».proof.Proof.LibRowGatherScatter
import proofs.«111328_j38869454028882_2_alg».proof.Proof.LibLayout
import Idealize.ShloMosaic.Lib.Pipeline.Value
import Idealize.ShloMosaic.Lib.ValueIdx

noncomputable section

open scoped BigOperators

namespace Cert.SageOps

open Idealize.ShloMosaic Idealize.ShloMosaic.ValueIdx Cert.RowGS Cert.Sage

variable {N E C : Nat}

/-- A scalar float constant broadcast over any shape reads the constant's value everywhere. -/
theorem splat_apply {s : Shape} (h : (⟨0, ![]⟩ : Shape).BroadcastsInDim s ![]) (z : BitVec 32) (i : s.Idx) :
    (broadcastInDim s ![] h (constant (F := Ideal) ⟨0, ![]⟩ .f32 z) : FVec Ideal s .f32) i = Ideal.ofBits .f32 z := by
  rw [Cert.Lib.splat_eq]; rfl

/-- A vector broadcast to a column and then along the rows reads, at `(n, k)`, its entry `n`. -/
theorem col_bcast_apply {α : Type} (hb1 : (⟨1, ![N]⟩ : Shape).BroadcastsInDim ⟨2, ![N, 1]⟩ ![0])
    (hb2 : (⟨2, ![N, 1]⟩ : Shape).BroadcastsInDim ⟨2, ![N, C]⟩ ![0, 1]) (v : (⟨1, ![N]⟩ : Shape).Idx → α) (n : Fin N) (k : Fin C) :
    broadcastInDim ⟨2, ![N, C]⟩ ![0, 1] hb2 (broadcastInDim ⟨2, ![N, 1]⟩ ![0] hb1 v) (ix2 n k) = v (ix1 n) := by
  have hn := n.isLt
  rw [broadcastInDim_apply ![0, 1] hb2 _ (ix2 n k) (ix2 n (0 : Fin 1)) (fun a => by
      match a with
      | ⟨0, _⟩ => show n.val = if N = 1 then 0 else n.val; split <;> omega
      | ⟨1, _⟩ => show (0 : ℕ) = if (1 : ℕ) = 1 then 0 else _; rw [if_pos rfl]),
    broadcastInDim_apply ![0] hb1 v (ix2 n (0 : Fin 1)) (ix1 n) (fun a => by
      match a with
      | ⟨0, _⟩ => show n.val = if N = 1 then 0 else n.val; split <;> omega)]

/-- A vector laid out as a row and repeated down the rows reads, at `(p, c)`, its entry `c`. -/
theorem row_bcast_apply {α : Type} {R : Nat} (h1 : (⟨1, ![C]⟩ : Shape).BroadcastsInDim ⟨2, ![1, C]⟩ ![1])
    (h2 : (⟨2, ![1, C]⟩ : Shape).BroadcastsInDim ⟨2, ![R, C]⟩ ![0, 1]) (b : (⟨1, ![C]⟩ : Shape).Idx → α) (p : Fin R) (c : Fin C) :
    broadcastInDim ⟨2, ![R, C]⟩ ![0, 1] h2 (broadcastInDim ⟨2, ![1, C]⟩ ![1] h1 b) (ix2 p c) = b (ix1 c) := by
  have hc := c.isLt
  rw [broadcastInDim_apply ![0, 1] h2 _ (ix2 p c) (ix2 (0 : Fin 1) c) (fun a => by
      match a with
      | ⟨0, _⟩ => show (0 : ℕ) = if (1 : ℕ) = 1 then 0 else _; rw [if_pos rfl]
      | ⟨1, _⟩ => show c.val = if C = 1 then 0 else c.val; split <;> omega),
    broadcastInDim_apply ![1] h1 b (ix2 (0 : Fin 1) c) (ix1 c) (fun a => by
      match a with
      | ⟨0, _⟩ => show c.val = if C = 1 then 0 else c.val; split <;> omega)]

/-- The divisors at node `n`. -/
theorem deg_apply {s1 : ScatterDims ⟨1, ![N]⟩ ⟨2, ![E, 1]⟩ ⟨1, ![E]⟩} (h1 : IsVecScatter s1)
    (hz : (⟨0, ![]⟩ : Shape).BroadcastsInDim ⟨1, ![N]⟩ ![]) (ho : (⟨0, ![]⟩ : Shape).BroadcastsInDim ⟨1, ![E]⟩ ![])
    (D : IVec ⟨2, ![E, 1]⟩ 32) (n : Fin N) :
    maximumf (Host.scatterAdd (F := Ideal) s1 (broadcastInDim ⟨1, ![N]⟩ ![] hz (constant ⟨0, ![]⟩ .f32 0x00000000#32)) D
        (broadcastInDim ⟨1, ![E]⟩ ![] ho (constant ⟨0, ![]⟩ .f32 0x3F800000#32)))
      (broadcastInDim ⟨1, ![N]⟩ ![] hz (constant ⟨0, ![]⟩ .f32 0x3F800000#32)) (ix1 n)
    = deg (fun (e : Fin E) (n : Fin N) => Lands D e n) n := by
  rw [maximumf_apply, scatterAdd_vec_apply h1, splat_apply, splat_apply]
  simp only [splat_apply]
  rfl

/-- The host's mean at node `n`, column `k`, for any divisor array `dg`. -/
theorem mean_apply {s : ScatterDims ⟨2, ![N, C]⟩ ⟨2, ![E, 1]⟩ ⟨2, ![E, C]⟩} (hs : IsRowScatter s)
    {g : GatherDims ⟨2, ![N, C]⟩ ⟨2, ![E, 1]⟩ ⟨2, ![E, C]⟩} (hg : IsRowGather g) (hN : 0 < N)
    (hzz : (⟨0, ![]⟩ : Shape).BroadcastsInDim ⟨2, ![N, C]⟩ ![])
    (hb1 : (⟨1, ![N]⟩ : Shape).BroadcastsInDim ⟨2, ![N, 1]⟩ ![0])
    (hb2 : (⟨2, ![N, 1]⟩ : Shape).BroadcastsInDim ⟨2, ![N, C]⟩ ![0, 1])
    (f : FVec Ideal ⟨2, ![N, C]⟩ .f32) (S D : IVec ⟨2, ![E, 1]⟩ 32) (dg : FVec Ideal ⟨1, ![N]⟩ .f32) (n : Fin N) (k : Fin C) :
    Host.divf (Host.scatterAdd (F := Ideal) s (broadcastInDim ⟨2, ![N, C]⟩ ![] hzz (constant ⟨0, ![]⟩ .f32 0x00000000#32)) D
        (Host.gather g f S))
      (broadcastInDim ⟨2, ![N, C]⟩ ![0, 1] hb2 (broadcastInDim ⟨2, ![N, 1]⟩ ![0] hb1 dg)) (ix2 n k)
    = Ideal.div (zeroF + ∑ e ∈ Finset.univ.filter (fun e : Fin E => Lands D e n), f (ix2 (srcRow hN S e) k)) (dg (ix1 n)) := by
  show Ideal.div (Host.scatterAdd (F := Ideal) s _ D (Host.gather g f S) (ix2 n k)) _ = _
  rw [scatterAdd_row_apply hs, col_bcast_apply, splat_apply]
  refine congrArg₂ Ideal.div (congrArg₂ (· + ·) rfl (Finset.sum_congr rfl fun e _ => ?_)) rfl
  exact gather_row_apply hg hN f S e k

end Cert.SageOps

end
-- ==== Proof.KernelValue.lean ====
/-
  The idealized kernel's result, entry by entry, is the specification's second layer aggregating the projected rows.

  The result buffer ends at what the second region leaves: `(h·Vr + g) + b'` of the hidden array `h` the first region
  wrote and of the mean `g` of its projected rows `h·Vl` the host computed between the regions. The hidden array is
  `max((a·Wl + x·Wr) + b, 0)` of the mean `a` of the features. At node `n` and column `c` this is `outAfter`, with the
  edges' source rows and landing relation read off the edge list. A change of float format is the identity throughout.
-/
import proofs.«111328_j38869454028882_2_alg».proof.Proof.KernelRun
import proofs.«111328_j38869454028882_2_alg».proof.Proof.Region0
import proofs.«111328_j38869454028882_2_alg».proof.Proof.Region1
import proofs.«111328_j38869454028882_2_alg».proof.Proof.HostK
import proofs.«111328_j38869454028882_2_alg».proof.Proof.SageOps

set_option maxRecDepth 16384

noncomputable section

open scoped BigOperators

namespace Cert.KernelIdeal.Result

open Cert.KernelIdeal Cert.KernelIdeal.Gen Cert.KernelIdeal.Host Cert.KernelIdeal.Blocks
open Idealize.ShloMosaic Idealize.ShloMosaic.TcCoe Idealize.SL.Sem Idealize.ShloMosaic.ValueIdx
open Cert.RowGS Cert.Sage

theorem rowScatter : IsRowScatter (N := 100000) (E := 1600000) (C := 32) scatter_S100000x32_S1600000x1_S1600000x32_1_0_0_1 :=
  ⟨rfl, rfl, rfl, rfl⟩
theorem vecScatter : IsVecScatter (N := 100000) (E := 1600000) scatter_S100000_S1600000x1_S1600000_n_0_0_1 :=
  ⟨rfl, rfl, rfl, rfl⟩
theorem rowGather : IsRowGather (N := 100000) (E := 1600000) (C := 32) gather_S100000x32_S1600000x1_S1600000x32_1_0_n_n_0_1_132 :=
  ⟨rfl, rfl, rfl, rfl, rfl, rfl, rfl⟩

/-- The row an edge reads, off the edge list. -/
abbrev rowK (ei : IVec S2x1600000 32) : Fin 1600000 → Fin 100000 := srcRow (by decide) (srcIdx ei)
/-- Edge `e` lands on node `n`, off the edge list. -/
abbrev landsK (ei : IVec S2x1600000 32) : Fin 1600000 → Fin 100000 → Prop := fun e n => Lands (dstIdx ei) e n

/-- The host's mean of a 32-wide table, at node `n` and column `k`. -/
theorem meanArr_apply (ei : IVec S2x1600000 32) (f : S100000x32.Idx → EReal) (n : Fin 100000) (k : Fin 32) :
    meanArr ei f (ix2 n k) = mean (rowK ei) (landsK ei) f n k := by
  show Host.divf (Host.scatterAdd (F := Ideal) scatter_S100000x32_S1600000x1_S1600000x32_1_0_0_1 _ (dstIdx ei)
      (Host.gather gather_S100000x32_S1600000x1_S1600000x32_1_0_n_n_0_1_132 f (srcIdx ei))) _ (ix2 n k) = _
  rw [Cert.SageOps.mean_apply rowScatter rowGather (by decide)]
  unfold mean
  rw [show degArr ei (ix1 n) = deg (landsK ei) n from Cert.SageOps.deg_apply vecScatter _ _ (dstIdx ei) n]

variable (ei : IVec S2x1600000 32) (x : S100000x32.Idx → EReal) (Wl Wr : S32x64.Idx → EReal) (b : S64.Idx → EReal)
  (Vl Vr : S64x32.Idx → EReal) (b' : S32.Idx → EReal)

/-- The hidden array of the arguments. -/
def hidK : S100000x64.Idx → EReal := hidArr (meanArr ei x) x Wl Wr (shapeCast S1x64 b shapeCasts_S64_S1x64)

/-- The kernel's result array of the arguments. -/
def outK : S100000x32.Idx → EReal :=
  Blocks1.outArr (meanArr ei (projArr (hidK ei x Wl Wr b) Vl)) (hidK ei x Wl Wr b) Vr (shapeCast S1x32 b' shapeCasts_S32_S1x32)

theorem hidK_apply (n : Fin 100000) (j : Fin 64) : hidK ei x Wl Wr b (ix2 n j) = hid (rowK ei) (landsK ei) x Wl Wr b n j := by
  unfold hidK hid
  rw [hidArr_apply, Cert.Lib.bias_row b shapeCasts_S64_S1x64 (ix2 (0 : Fin 1) j) (ix1 j) rfl]
  simp only [meanArr_apply]

theorem projK_eq : projArr (hidK ei x Wl Wr b) Vl
    = fun i : S100000x32.Idx => proj (rowK ei) (landsK ei) x Wl Wr b Vl (i 0) (i 1) := by
  funext i
  obtain ⟨r, c, rfl⟩ : ∃ (r : Fin 100000) (c : Fin 32), i = ix2 r c := ⟨i 0, i 1, eq_ix2 i⟩
  rw [projArr_apply]
  unfold proj
  simp only [hidK_apply]

/-- The result array at node `n`, column `c`. -/
theorem outK_apply (n : Fin 100000) (c : Fin 32) :
    outK ei x Wl Wr b Vl Vr b' (ix2 n c) = outAfter (rowK ei) (landsK ei) x Wl Wr b Vl Vr b' n c := by
  unfold outK outAfter
  rw [Blocks1.outArr_apply, meanArr_apply, projK_eq,
    Cert.Lib.bias_row b' shapeCasts_S32_S1x32 (ix2 (0 : Fin 1) c) (ix1 c) rfl]
  simp only [hidK_apply]

variable (m : (ℓ : Loc nD τ sig) → Buf (Elt Ideal) ℓ) (ρ : Dev nD → PrngReg)

/-- The hidden array the first region leaves is `hidK` of the arguments. -/
theorem hid_final (c : Dev nD) :
    W2 m ρ c (Proc.devRef .tc main_v26_0)
      = hidK (m ((c : Thread nD τ).loc main_arg1)) (m ((c : Thread nD τ).loc main_arg0)) (m ((c : Thread nD τ).loc main_arg2))
          (m ((c : Thread nD τ).loc main_arg4)) (m ((c : Thread nD τ).loc main_arg3)) := by
  refine (W2_arr m ρ c 6).trans ((final6 (V1 m ρ) c).trans ?_)
  unfold hid0 hidK
  rw [V1_v24, V1_v25, V1_arg0, V1_arg2, V1_arg4]
  rfl

/-- The projected array the first region leaves. -/
theorem proj_final (c : Dev nD) :
    W2 m ρ c (Proc.devRef .tc main_v26_1)
      = projArr (hidK (m ((c : Thread nD τ).loc main_arg1)) (m ((c : Thread nD τ).loc main_arg0)) (m ((c : Thread nD τ).loc main_arg2))
          (m ((c : Thread nD τ).loc main_arg4)) (m ((c : Thread nD τ).loc main_arg3))) (m ((c : Thread nD τ).loc main_arg5)) := by
  refine (W2_arr m ρ c 7).trans ((final7 (V1 m ρ) c).trans ?_)
  unfold hid0 hidK
  rw [V1_v24, V1_v25, V1_arg0, V1_arg2, V1_arg4, V1_arg5]
  rfl

/-- The result buffer after the run is `outK` of the arguments. -/
theorem result_final (c : Dev nD) :
    W4 m ρ c (Proc.devRef .tc main_v42)
      = outK (m ((c : Thread nD τ).loc main_arg1)) (m ((c : Thread nD τ).loc main_arg0)) (m ((c : Thread nD τ).loc main_arg2))
          (m ((c : Thread nD τ).loc main_arg4)) (m ((c : Thread nD τ).loc main_arg3)) (m ((c : Thread nD τ).loc main_arg5))
          (m ((c : Thread nD τ).loc main_arg7)) (m ((c : Thread nD τ).loc main_arg6)) := by
  refine (W4_arr m ρ c 4).trans ((Blocks1.final4 (V3 m ρ) c).trans ?_)
  unfold Blocks1.out1 outK
  rw [V3_v40, V3_v26_0, V3_arg7, V3_v41, hid_final, proj_final]

end Cert.KernelIdeal.Result

end
-- ==== Proof.RefValue.lean ====
/-
  The idealized reference's result, entry by entry, is the specification's second layer aggregating the hidden rows.

  The reference computes, on the host, the mean `a` of the features over each node's incoming edges, the hidden array
  `h = max((a·Wl + b) + x·Wr, 0)`, the mean `g` of the hidden rows, and the result `(g·Vl + b') + h·Vr`. At node `n` and
  column `c` this is `outBefore`, with the edges' source rows and landing relation read off the edge list: a matrix
  product is the plain sum over the contracted coordinate, a bias laid out as a row and repeated down the rows reads its
  entry at the column, and the host's mean is the specification's.
-/
import proofs.«111328_j38869454028882_2_alg».proof.Proof.Gen.ReferenceIdeal.Run
import proofs.«111328_j38869454028882_2_alg».proof.Proof.SageOps
import proofs.«111328_j38869454028882_2_alg».proof.Proof.LibPlainDot

set_option maxRecDepth 16384

noncomputable section

open scoped BigOperators

namespace Cert.ReferenceIdeal.Result

open Cert.ReferenceIdeal Cert.ReferenceIdeal.Gen Cert.ReferenceIdeal.Value
open Idealize.ShloMosaic Idealize.ShloMosaic.TcCoe Idealize.SL.Sem Idealize.ShloMosaic.ValueIdx
open Cert.RowGS Cert.Sage

/-- The target row of every edge, as the scatter reads it: row 1 of the edge list, one index per edge. -/
def dstIdx (ei : IVec S2x1600000 32) : IVec S1600000x1 32 :=
  broadcastInDim S1600000x1 ![0] bcast_S1600000_S1600000x1_0
    (shapeCast S1600000 (extractStridedSlice S1x1600000 ![1, 0] ei slices_S2x1600000_S1x1600000_1_0) shapeCasts_S1x1600000_S1600000)

/-- Row 0 of the edge list: the source row of every edge. -/
def srcRaw (ei : IVec S2x1600000 32) : IVec S1600000 32 :=
  shapeCast S1600000 (extractStridedSlice S1x1600000 ![0, 0] ei slices_S2x1600000_S1x1600000_0_0) shapeCasts_S1x1600000_S1600000

/-- The source row of every edge as the gather reads it: a negative index has the node count added once. -/
def srcIdx (ei : IVec S2x1600000 32) : IVec S1600000x1 32 :=
  broadcastInDim S1600000x1 ![0] bcast_S1600000_S1600000x1_0
    (select (cmpi .slt (srcRaw ei) (broadcastInDim S1600000 ![] bcast_S_S1600000 (constantI S_ 32 0#32)))
      (addi (srcRaw ei) (broadcastInDim S1600000 ![] bcast_S_S1600000 (constantI S_ 32 100000#32))) (srcRaw ei))

/-- The divisors: the in-degree of every node, counted as a scatter-add of ones into zeros, and at least one. -/
def degArr (ei : IVec S2x1600000 32) : FVec Ideal S100000 .f32 :=
  maximumf (Host.scatterAdd scatter_S100000_S1600000x1_S1600000_n_0_0_1
      (broadcastInDim S100000 ![] bcast_S_S100000 (constant S_ .f32 0x00000000#32)) (dstIdx ei)
      (broadcastInDim S1600000 ![] bcast_S_S1600000 (constant S_ .f32 0x3F800000#32)))
    (broadcastInDim S100000 ![] bcast_S_S100000 (constant S_ .f32 0x3F800000#32))

/-- The mean over each node's incoming edges of the rows of a 32-wide table. -/
def mean32 (ei : IVec S2x1600000 32) (f : FVec Ideal S100000x32 .f32) : FVec Ideal S100000x32 .f32 :=
  Host.divf (Host.scatterAdd scatter_S100000x32_S1600000x1_S1600000x32_1_0_0_1
      (broadcastInDim S100000x32 ![] bcast_S_S100000x32 (constant S_ .f32 0x00000000#32)) (dstIdx ei)
      (Host.gather gather_S100000x32_S1600000x1_S1600000x32_1_0_n_n_0_1_132 f (srcIdx ei)))
    (broadcastInDim S100000x32 ![0, 1] bcast_S100000x1_S100000x32_0_1
      (broadcastInDim S100000x1 ![0] bcast_S100000_S100000x1_0 (degArr ei)))

/-- The same of a 64-wide table. -/
def mean64 (ei : IVec S2x1600000 32) (f : FVec Ideal S100000x64 .f32) : FVec Ideal S100000x64 .f32 :=
  Host.divf (Host.scatterAdd scatter_S100000x64_S1600000x1_S1600000x64_1_0_0_1
      (broadcastInDim S100000x64 ![] bcast_S_S100000x64 (constant S_ .f32 0x00000000#32)) (dstIdx ei)
      (Host.gather gather_S100000x64_S1600000x1_S1600000x64_1_0_n_n_0_1_164 f (srcIdx ei)))
    (broadcastInDim S100000x64 ![0, 1] bcast_S100000x1_S100000x64_0_1
      (broadcastInDim S100000x1 ![0] bcast_S100000_S100000x1_0 (degArr ei)))

variable (ei : IVec S2x1600000 32) (x : FVec Ideal S100000x32 .f32) (Wl Wr : FVec Ideal S32x64 .f32) (b : FVec Ideal S64 .f32)
  (Vl Vr : FVec Ideal S64x32 .f32) (b' : FVec Ideal S32 .f32)

/-- The hidden array of the arguments. -/
def hidR : FVec Ideal S100000x64 .f32 :=
  maximumf (addf (addf (Host.dotGeneral dot_S100000x32_S32x64_S100000x64_1_0_0_1_n_n none (mean32 ei x) Wl)
        (broadcastInDim S100000x64 ![0, 1] bcast_S1x64_S100000x64_0_1 (broadcastInDim S1x64 ![1] bcast_S64_S1x64_1 b)))
      (Host.dotGeneral dot_S100000x32_S32x64_S100000x64_1_0_0_1_n_n none x Wr))
    (broadcastInDim S100000x64 ![] bcast_S_S100000x64 (constant S_ .f32 0x00000000#32))

/-- The reference's result array of the arguments. -/
def outR : FVec Ideal S100000x32 .f32 :=
  addf (addf (Host.dotGeneral dot_S100000x64_S64x32_S100000x32_1_0_0_1_n_n none (mean64 ei (hidR ei x Wl Wr b)) Vl)
      (broadcastInDim S100000x32 ![0, 1] bcast_S1x32_S100000x32_0_1 (broadcastInDim S1x32 ![1] bcast_S32_S1x32_1 b')))
    (Host.dotGeneral dot_S100000x64_S64x32_S100000x32_1_0_0_1_n_n none (hidR ei x Wl Wr b) Vr)

/-- The run's composed term is `outR` of the arguments. -/
theorem res_eq (m : (ℓ : Loc nD τ sig) → Buf (Elt Ideal) ℓ) (c : Dev nD) :
    res_main_v54 m c
      = outR (m ((c.tc : Thread nD τ).loc main_arg1)) (m ((c.tc : Thread nD τ).loc main_arg0)) (m ((c.tc : Thread nD τ).loc main_arg2))
          (m ((c.tc : Thread nD τ).loc main_arg4)) (m ((c.tc : Thread nD τ).loc main_arg3)) (m ((c.tc : Thread nD τ).loc main_arg5))
          (m ((c.tc : Thread nD τ).loc main_arg7)) (m ((c.tc : Thread nD τ).loc main_arg6)) := by
  unfold res_main_v54 outR hidR mean64 mean32 degArr srcIdx srcRaw dstIdx
  rfl

theorem rowScatter32 : IsRowScatter (N := 100000) (E := 1600000) (C := 32) scatter_S100000x32_S1600000x1_S1600000x32_1_0_0_1 :=
  ⟨rfl, rfl, rfl, rfl⟩
theorem rowScatter64 : IsRowScatter (N := 100000) (E := 1600000) (C := 64) scatter_S100000x64_S1600000x1_S1600000x64_1_0_0_1 :=
  ⟨rfl, rfl, rfl, rfl⟩
theorem vecScatter : IsVecScatter (N := 100000) (E := 1600000) scatter_S100000_S1600000x1_S1600000_n_0_0_1 :=
  ⟨rfl, rfl, rfl, rfl⟩
theorem rowGather32 : IsRowGather (N := 100000) (E := 1600000) (C := 32) gather_S100000x32_S1600000x1_S1600000x32_1_0_n_n_0_1_132 :=
  ⟨rfl, rfl, rfl, rfl, rfl, rfl, rfl⟩
theorem rowGather64 : IsRowGather (N := 100000) (E := 1600000) (C := 64) gather_S100000x64_S1600000x1_S1600000x64_1_0_n_n_0_1_164 :=
  ⟨rfl, rfl, rfl, rfl, rfl, rfl, rfl⟩
theorem plain32 : Cert.PlainDot.IsPlain dot_S100000x32_S32x64_S100000x64_1_0_0_1_n_n := ⟨rfl, rfl, rfl, rfl, rfl, rfl⟩
theorem plain64 : Cert.PlainDot.IsPlain dot_S100000x64_S64x32_S100000x32_1_0_0_1_n_n := ⟨rfl, rfl, rfl, rfl, rfl, rfl⟩

/-- The row an edge reads, off the edge list. -/
abbrev rowR (ei : IVec S2x1600000 32) : Fin 1600000 → Fin 100000 := srcRow (by decide) (srcIdx ei)
/-- Edge `e` lands on node `n`, off the edge list. -/
abbrev landsR (ei : IVec S2x1600000 32) : Fin 1600000 → Fin 100000 → Prop := fun e n => Lands (dstIdx ei) e n

theorem mean32_apply (f : S100000x32.Idx → EReal) (n : Fin 100000) (k : Fin 32) :
    mean32 ei f (ix2 n k) = mean (rowR ei) (landsR ei) f n k := by
  unfold mean32
  rw [Cert.SageOps.mean_apply rowScatter32 rowGather32 (by decide)]
  unfold mean
  rw [show degArr ei (ix1 n) = deg (landsR ei) n from Cert.SageOps.deg_apply vecScatter _ _ (dstIdx ei) n]

theorem mean64_apply (f : S100000x64.Idx → EReal) (n : Fin 100000) (k : Fin 64) :
    mean64 ei f (ix2 n k) = mean (rowR ei) (landsR ei) f n k := by
  unfold mean64
  rw [Cert.SageOps.mean_apply rowScatter64 rowGather64 (by decide)]
  unfold mean
  rw [show degArr ei (ix1 n) = deg (landsR ei) n from Cert.SageOps.deg_apply vecScatter _ _ (dstIdx ei) n]

theorem hidR_apply (n : Fin 100000) (j : Fin 64) : hidR ei x Wl Wr b (ix2 n j) = hid' (rowR ei) (landsR ei) x Wl Wr b n j := by
  unfold hidR hid'
  rw [maximumf_apply, addf_apply, addf_apply, Cert.PlainDot.dotGeneral_apply plain32, Cert.PlainDot.dotGeneral_apply plain32,
    Cert.SageOps.row_bcast_apply, Cert.SageOps.splat_apply]
  simp only [mean32_apply]

theorem hidR_eq : hidR ei x Wl Wr b = fun i : S100000x64.Idx => hid' (rowR ei) (landsR ei) x Wl Wr b (i 0) (i 1) := by
  funext i
  obtain ⟨r, j, rfl⟩ : ∃ (r : Fin 100000) (j : Fin 64), i = ix2 r j := ⟨i 0, i 1, eq_ix2 i⟩
  exact hidR_apply ei x Wl Wr b r j

/-- The result array at node `n`, column `c`. -/
theorem outR_apply (n : Fin 100000) (c : Fin 32) :
    outR ei x Wl Wr b Vl Vr b' (ix2 n c) = outBefore (rowR ei) (landsR ei) x Wl Wr b Vl Vr b' n c := by
  unfold outR outBefore
  rw [addf_apply, addf_apply, Cert.PlainDot.dotGeneral_apply plain64, Cert.PlainDot.dotGeneral_apply plain64,
    Cert.SageOps.row_bcast_apply]
  simp only [mean64_apply, hidR_apply]
  rw [hidR_eq]

end Cert.ReferenceIdeal.Result

end
-- ==== Proof.SageLaw.lean ====
/-
  The two statements of the second layer agree on finite data.

  Addition on the extended reals is commutative and associative, so the order in which bias and root term are added
  does not matter, with no finiteness needed. The mean is linear: for real hidden rows h, real weights V and a real
  nonzero divisor d,  Σ_k ((Σ_e h[row e, k]) / d) · V[k]  =  (Σ_e Σ_k h[row e, k] · V[k]) / d.  Distributivity fails at
  the infinities, so this step needs the data to be real; the divisor is max(count, 1) ≥ 1, hence real and nonzero.
-/
import proofs.«111328_j38869454028882_2_alg».proof.Proof.SageSpec
import Idealize.ShloMosaic.Lib.IdealHost

noncomputable section

open scoped BigOperators

namespace Cert.Sage

open Idealize.ShloMosaic Idealize.ShloMosaic.ValueIdx

/-! ## The literals -/

theorem zeroF_eq : zeroF = ((0 : ℝ) : EReal) := by
  show Ideal.ofBits .f32 0x00000000#32 = _
  rw [Ideal.ofBits_zero_f32, EReal.coe_zero]

theorem oneF_eq : oneF = ((1 : ℝ) : EReal) := by
  show Ideal.ofBits .f32 0x3F800000#32 = _
  rw [Ideal.ofBits_one_f32, EReal.coe_one]

/-! ## Finite extended reals -/

/-- The coercion of a finite real sum is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion of the larger of two reals is the larger of the coercions. -/
theorem coe_max (r s : ℝ) : ((Max.max r s : ℝ) : EReal) = Max.max (r : EReal) (s : EReal) :=
  EReal.coe_strictMono.monotone.map_max

/-- An extended real that is a real. -/
def IsR (a : EReal) : Prop := ∃ r : ℝ, a = (r : EReal)

theorem IsR.add {a b : EReal} (ha : IsR a) (hb : IsR b) : IsR (a + b) := by
  obtain ⟨r, rfl⟩ := ha; obtain ⟨s, rfl⟩ := hb; exact ⟨r + s, (EReal.coe_add r s).symm⟩

theorem IsR.mul {a b : EReal} (ha : IsR a) (hb : IsR b) : IsR (a * b) := by
  obtain ⟨r, rfl⟩ := ha; obtain ⟨s, rfl⟩ := hb; exact ⟨r * s, (EReal.coe_mul r s).symm⟩

theorem IsR.max {a b : EReal} (ha : IsR a) (hb : IsR b) : IsR (max a b) := by
  obtain ⟨r, rfl⟩ := ha; obtain ⟨s, rfl⟩ := hb; exact ⟨Max.max r s, (coe_max r s).symm⟩

theorem IsR.sum {ι : Type} (s : Finset ι) {f : ι → EReal} (hf : ∀ i, IsR (f i)) : IsR (∑ i ∈ s, f i) := by
  choose g hg using hf
  exact ⟨∑ i ∈ s, g i, by rw [coe_sum]; exact Finset.sum_congr rfl fun i _ => hg i⟩

theorem IsR.div {a : EReal} (ha : IsR a) {d : ℝ} (hd : d ≠ 0) : IsR (Ideal.div a (d : EReal)) := by
  rw [Ideal.div_coe hd]; exact ha.mul ⟨_, rfl⟩

theorem isR_zeroF : IsR zeroF := ⟨0, zeroF_eq⟩

variable {N E : Nat} (row : Fin E → Fin N) (lands : Fin E → Fin N → Prop) [∀ n, DecidablePred fun e => lands e n]

/-! ## The divisor is a real, at least one -/

theorem deg_eq (n : Fin N) : ∃ d : ℝ, d ≠ 0 ∧ deg lands n = (d : EReal) := by
  refine ⟨Max.max (0 + ∑ _e ∈ Finset.univ.filter (fun e => lands e n), (1 : ℝ)) 1, ?_, ?_⟩
  · have : (1 : ℝ) ≤ Max.max (0 + ∑ _e ∈ Finset.univ.filter (fun e => lands e n), (1 : ℝ)) 1 := le_max_right _ _
    intro h; rw [h] at this; norm_num at this
  · unfold deg
    rw [zeroF_eq, oneF_eq, ← coe_sum, ← EReal.coe_add, ← coe_max]

theorem isR_mean {C : Nat} {f : (⟨2, ![N, C]⟩ : Shape).Idx → EReal} (hf : ∀ i, IsR (f i)) (n : Fin N) (k : Fin C) :
    IsR (mean row lands f n k) := by
  obtain ⟨d, hd, he⟩ := deg_eq lands n
  unfold mean; rw [he]
  exact (isR_zeroF.add (IsR.sum _ fun e => hf _)).div hd

/-! ## The linearity of the mean -/

/-- Over the reals: scaling each column sum and then contracting with V is contracting each row with V, summing, and
    scaling. -/
theorem core_real {ι κ : Type} [Fintype κ] (S : Finset ι) (H : ι → κ → ℝ) (V : κ → ℝ) (d : ℝ) :
    ∑ k, ((0 + ∑ e ∈ S, H e k) * (1 / d)) * V k = (0 + ∑ e ∈ S, ∑ k, H e k * V k) * (1 / d) := by
  simp only [zero_add]
  rw [Finset.sum_comm, Finset.sum_mul]
  refine Finset.sum_congr rfl fun k _ => ?_
  rw [← Finset.sum_mul]; ring

/-- The same on the extended reals, for real data and a real nonzero divisor. -/
theorem core {ι κ : Type} [Fintype κ] (S : Finset ι) (H : ι → κ → ℝ) (V : κ → ℝ) {d : ℝ} (hd : d ≠ 0) :
    ∑ k, Ideal.div (zeroF + ∑ e ∈ S, (H e k : EReal)) (d : EReal) * (V k : EReal)
      = Ideal.div (zeroF + ∑ e ∈ S, ∑ k, (H e k : EReal) * (V k : EReal)) (d : EReal) := by
  simp only [Ideal.div_coe hd, zeroF_eq, ← coe_sum, ← EReal.coe_mul, ← EReal.coe_add]
  exact congrArg _ (core_real S H V d)

variable (x : (⟨2, ![N, 32]⟩ : Shape).Idx → EReal)
  (Wl Wr : (⟨2, ![32, 64]⟩ : Shape).Idx → EReal) (b : (⟨1, ![64]⟩ : Shape).Idx → EReal)
  (Vl Vr : (⟨2, ![64, 32]⟩ : Shape).Idx → EReal) (b' : (⟨1, ![32]⟩ : Shape).Idx → EReal)

/-! ## The hidden layer -/

/-- The two orders of adding bias and root term give the same hidden layer. -/
theorem hid_eq_hid' (n : Fin N) (j : Fin 64) : hid row lands x Wl Wr b n j = hid' row lands x Wl Wr b n j := by
  unfold hid hid'
  exact congrArg (fun t => Max.max t zeroF) (add_right_comm _ _ _)

/-- On real data the hidden layer is real. -/
theorem isR_hid (hx : ∀ i, IsR (x i)) (hWl : ∀ i, IsR (Wl i)) (hWr : ∀ i, IsR (Wr i)) (hb : ∀ i, IsR (b i))
    (n : Fin N) (j : Fin 64) : IsR (hid row lands x Wl Wr b n j) := by
  unfold hid
  exact (((IsR.sum _ fun k => (isR_mean row lands hx n k).mul (hWl _)).add
    (IsR.sum _ fun k => (hx _).mul (hWr _))).add (hb _)).max isR_zeroF

/-! ## The second layer -/

/-- On real data, aggregating the projected rows and aggregating the hidden rows give the same second layer. -/
theorem out_eq (hx : ∀ i, ∃ r : ℝ, x i = (r : EReal)) (hWl : ∀ i, ∃ r : ℝ, Wl i = (r : EReal))
    (hWr : ∀ i, ∃ r : ℝ, Wr i = (r : EReal)) (hb : ∀ i, ∃ r : ℝ, b i = (r : EReal))
    (hVl : ∀ i, ∃ r : ℝ, Vl i = (r : EReal)) (n : Fin N) (c : Fin 32) :
    outAfter row lands x Wl Wr b Vl Vr b' n c = outBefore row lands x Wl Wr b Vl Vr b' n c := by
  have hh : hid' row lands x Wl Wr b = hid row lands x Wl Wr b :=
    funext fun m => funext fun j => (hid_eq_hid' row lands x Wl Wr b m j).symm
  choose H hH using fun m j => isR_hid row lands x Wl Wr b hx hWl hWr hb m j
  choose V hV using hVl
  obtain ⟨d, hd, he⟩ := deg_eq lands n
  have key : mean row lands (fun i : (⟨2, ![N, 32]⟩ : Shape).Idx => proj row lands x Wl Wr b Vl (i 0) (i 1)) n c
      = ∑ k : Fin 64, mean row lands (fun i : (⟨2, ![N, 64]⟩ : Shape).Idx => hid row lands x Wl Wr b (i 0) (i 1)) n k
          * Vl (ix2 k c) := by
    show Ideal.div (zeroF + ∑ e ∈ Finset.univ.filter (fun e => lands e n),
          ∑ j : Fin 64, hid row lands x Wl Wr b (row e) j * Vl (ix2 j c)) (deg lands n)
      = ∑ k : Fin 64, Ideal.div (zeroF + ∑ e ∈ Finset.univ.filter (fun e => lands e n),
          hid row lands x Wl Wr b (row e) k) (deg lands n) * Vl (ix2 k c)
    rw [he]
    simp only [hH, hV]
    exact (core _ (fun e k => H (row e) k) (fun k => V (ix2 k c)) hd).symm
  unfold outAfter outBefore
  rw [hh, key, add_comm (∑ j : Fin 64, hid row lands x Wl Wr b n j * Vr (ix2 j c)), add_right_comm]

end Cert.Sage

end
-- ==== Proof.FiniteInputs.lean ====
/-
  Finite inputs are real numbers. The precondition evaluates, for each of the seven float argument arrays `x`,
  the conjunction over all entries of the test `|x i| < +∞`, joins the seven results by `and`, and states that the
  outcome is the one-bit word 1. Read backwards: a conjunction of one-bit words is 1 only if both operands are 1; an
  `and`-reduction over every axis that came out 1 met a 1 at every index; and an extended real `a` with
  `max a (-a) < ⊤` is neither `⊤` nor `⊥` (both have absolute value `⊤`), hence the image of a real number.
  So under the precondition every entry of every float argument array is a real.
-/
import proofs.«111328_j38869454028882_2_alg».proof.Defs
import Idealize.ShloMosaic.Lib.ReduceAll
import Idealize.ShloMosaic.Lib.ValueIdx
import Mathlib

noncomputable section

namespace Cert.FiniteInputs

open Idealize.ShloMosaic Idealize.ShloMosaic.ValueIdx
open Cert.Pre_finite_inputs

/-- The bit pattern `0x7F800000` (sign 0, exponent all ones, significand 0) denotes `+∞`. -/
theorem ofBits_inf : Ideal.ofBits .f32 0x7F800000#32 = (⊤ : EReal) := by simp [Ideal.ofBits, Ideal.ieee]

/-- An extended real whose absolute value `max a (-a)` is strictly below `+∞` is a real number:
    at `⊤` and at `⊥` the absolute value is `⊤`, which is not below itself. -/
theorem real_of_abs_lt (a : Ideal .f32)
    (h : FloatOps.cmpf (F := Ideal) .olt (FloatOps.hostAbsf a) (FloatOps.ofBits (F := Ideal) .f32 0x7F800000#32) = 1#1) :
    ∃ r : ℝ, (a : EReal) = (r : EReal) := by
  have h' : Ideal.cmp .olt (max (a : EReal) (-(a : EReal))) (Ideal.ofBits .f32 0x7F800000#32) = 1#1 := h
  rw [ofBits_inf] at h'
  unfold Ideal.cmp at h'
  have hlt : max (a : EReal) (-(a : EReal)) < ⊤ := by
    by_contra hn
    simp [hn] at h'
  induction a using EReal.rec with
  | bot => simp at hlt
  | coe r => exact ⟨r, rfl⟩
  | top => simp at hlt

instance : Subsingleton S_.Idx := ⟨fun a b => funext fun d => d.elim0⟩

theorem reals_of_fn [Facts] (x0 : FVec Ideal S100000x32 .f32) (x1 : IVec S2x1600000 32) (x2 : FVec Ideal S32x64 .f32)
    (x3 : FVec Ideal S64 .f32) (x4 : FVec Ideal S32x64 .f32) (x5 : FVec Ideal S64x32 .f32) (x6 : FVec Ideal S32 .f32)
    (x7 : FVec Ideal S64x32 .f32)
    (h : fn (F := Ideal) x0 x1 x2 x3 x4 x5 x6 x7 = (fun _ => 1#1)) :
    (∀ i, ∃ r : ℝ, (x0 i : EReal) = (r : EReal)) ∧ (∀ i, ∃ r : ℝ, (x2 i : EReal) = (r : EReal))
    ∧ (∀ i, ∃ r : ℝ, (x3 i : EReal) = (r : EReal)) ∧ (∀ i, ∃ r : ℝ, (x4 i : EReal) = (r : EReal))
    ∧ (∀ i, ∃ r : ℝ, (x5 i : EReal) = (r : EReal)) ∧ (∀ i, ∃ r : ℝ, (x6 i : EReal) = (r : EReal))
    ∧ (∀ i, ∃ r : ℝ, (x7 i : EReal) = (r : EReal)) := by
  have h0 := congrFun h ValueIdx.ix0
  dsimp only [fn, fn_part1] at h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨e0, e2⟩ := IntOp.andi_eq_one.1 h0
  refine ⟨fun i => ?_, fun i => ?_, fun i => ?_, fun i => ?_, fun i => ?_, fun i => ?_, fun i => ?_⟩
  · exact real_of_abs_lt (x0 i) (Host.reduce_andi_all _ _ _ _ _ e0 i)
  · exact real_of_abs_lt (x2 i) (Host.reduce_andi_all _ _ _ _ _ e2 i)
  · exact real_of_abs_lt (x3 i) (Host.reduce_andi_all _ _ _ _ _ e3 i)
  · exact real_of_abs_lt (x4 i) (Host.reduce_andi_all _ _ _ _ _ e4 i)
  · exact real_of_abs_lt (x5 i) (Host.reduce_andi_all _ _ _ _ _ e5 i)
  · exact real_of_abs_lt (x6 i) (Host.reduce_andi_all _ _ _ _ _ e6 i)
  · exact real_of_abs_lt (x7 i) (Host.reduce_andi_all _ _ _ _ _ e7 i)

/-- On every device, each of the seven float argument arrays of a memory satisfying the precondition has only
    real entries. -/
theorem reals_of_pre [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, (m ((c.tc : Thread Cert.KernelIdeal.nD Cert.KernelIdeal.τ).loc Cert.KernelIdeal.main_arg0) : Cert.KernelIdeal.S100000x32.Idx → EReal) i = (r : EReal))
    ∧ (∀ i, ∃ r : ℝ, (m ((c.tc : Thread Cert.KernelIdeal.nD Cert.KernelIdeal.τ).loc Cert.KernelIdeal.main_arg2) : Cert.KernelIdeal.S32x64.Idx → EReal) i = (r : EReal))
    ∧ (∀ i, ∃ r : ℝ, (m ((c.tc : Thread Cert.KernelIdeal.nD Cert.KernelIdeal.τ).loc Cert.KernelIdeal.main_arg3) : Cert.KernelIdeal.S64.Idx → EReal) i = (r : EReal))
    ∧ (∀ i, ∃ r : ℝ, (m ((c.tc : Thread Cert.KernelIdeal.nD Cert.KernelIdeal.τ).loc Cert.KernelIdeal.main_arg4) : Cert.KernelIdeal.S32x64.Idx → EReal) i = (r : EReal))
    ∧ (∀ i, ∃ r : ℝ, (m ((c.tc : Thread Cert.KernelIdeal.nD Cert.KernelIdeal.τ).loc Cert.KernelIdeal.main_arg5) : Cert.KernelIdeal.S64x32.Idx → EReal) i = (r : EReal))
    ∧ (∀ i, ∃ r : ℝ, (m ((c.tc : Thread Cert.KernelIdeal.nD Cert.KernelIdeal.τ).loc Cert.KernelIdeal.main_arg6) : Cert.KernelIdeal.S32.Idx → EReal) i = (r : EReal))
    ∧ (∀ i, ∃ r : ℝ, (m ((c.tc : Thread Cert.KernelIdeal.nD Cert.KernelIdeal.τ).loc Cert.KernelIdeal.main_arg7) : Cert.KernelIdeal.S64x32.Idx → EReal) i = (r : EReal)) :=
  reals_of_fn _ _ _ _ _ _ _ _ (h c)

end Cert.FiniteInputs
-- ==== Proof.lean ====
/-
  A two-layer neighbour-mean graph convolution: the kernel against its reference, on the extended reals.

  Both programs compute, for 100000 nodes and 1600000 edges, `h = max(mean(x)·W1l + x·W1r + b1, 0)` and then a second layer
  of the same form without the maximum. The kernel multiplies each node's hidden row by `W2l` BEFORE taking the mean over
  the incoming edges; the reference takes the mean of the hidden rows and multiplies afterwards. The two agree because the
  mean is linear: `(Σ_e h[row e, ·] / d) · W = (Σ_e h[row e, ·] · W) / d`. On the extended reals distributivity fails at the
  infinities, so the precondition — every float input finite — is used: the hidden rows are then real, the divisor
  `max(in-degree, 1)` is a real at least one, and the identity is the real one. Everything else is re-association of
  sums, and a change of float format is the identity. Out-of-range edge indices need no hypothesis: both programs read a
  source row through the same clamped gather and drop the same out-of-range targets.

  The pieces: each kernel region's output array as one function of the arrays it finds, the host's stretches between
  them, the reference's composed term folded the same way, both read at a node and a column as the two statements of the
  specification, and the law that joins them.
-/
import proofs.«111328_j38869454028882_2_alg».proof.Defs
import proofs.«111328_j38869454028882_2_alg».proof.Proof.Gen.Kernel
import proofs.«111328_j38869454028882_2_alg».proof.Proof.Gen.Kernel.Skeleton
import proofs.«111328_j38869454028882_2_alg».proof.Proof.Gen.Kernel.Launch
import proofs.«111328_j38869454028882_2_alg».proof.Proof.Gen.Kernel.Points
import proofs.«111328_j38869454028882_2_alg».proof.Proof.Gen.Kernel.Frame
import proofs.«111328_j38869454028882_2_alg».proof.Proof.Gen.KernelIdeal
import proofs.«111328_j38869454028882_2_alg».proof.Proof.Gen.KernelIdeal.Skeleton
import proofs.«111328_j38869454028882_2_alg».proof.Proof.Gen.KernelIdeal.Launch
import proofs.«111328_j38869454028882_2_alg».proof.Proof.Gen.KernelIdeal.Points
import proofs.«111328_j38869454028882_2_alg».proof.Proof.Gen.KernelIdeal.Frame
import proofs.«111328_j38869454028882_2_alg».proof.Proof.Gen.ReferenceIdeal
import proofs.«111328_j38869454028882_2_alg».proof.Proof.Gen.Pre_finite_inputs
import proofs.«111328_j38869454028882_2_alg».proof.Proof.Gen.ReferenceIdeal.Run
import proofs.«111328_j38869454028882_2_alg».proof.Proof.Gen.ReferenceIdeal.Read
import proofs.«111328_j38869454028882_2_alg».proof.Proof.KernelValue
import proofs.«111328_j38869454028882_2_alg».proof.Proof.RefValue
import proofs.«111328_j38869454028882_2_alg».proof.Proof.SageLaw
import proofs.«111328_j38869454028882_2_alg».proof.Proof.FiniteInputs
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The two programs read the edges' source rows and landing relation off the edge list the same way. -/
theorem rows_eq (ei : IVec Cert.KernelIdeal.S2x1600000 32) :
    Cert.ReferenceIdeal.Result.rowR ei = Cert.KernelIdeal.Result.rowK ei := rfl
theorem lands_eq (ei : IVec Cert.KernelIdeal.S2x1600000 32) :
    Cert.ReferenceIdeal.Result.landsR ei = Cert.KernelIdeal.Result.landsK ei := rfl

/-- On finite inputs the kernel's result array and the reference's hold the same extended real at every node and column:
    the kernel's is the specification aggregating the projected rows, the reference's the specification aggregating the
    hidden rows, and the mean is linear on real data. -/
theorem algebraic : Cert.algebraic_KernelIdeal_ReferenceIdeal := by
  intro m ρ m' ρ' hpre hagree
  refine ⟨fun c => Cert.KernelIdeal.Result.outK
      (m ((c.tc : Thread Cert.KernelIdeal.nD Cert.KernelIdeal.τ).loc Cert.KernelIdeal.main_arg1))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Result.result_final m ρ c), (h c).2⟩)
      (Cert.KernelIdeal.Run.run (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7⟩ := hagree c
    obtain ⟨r0, r2, r3, r4, r5, r6, r7⟩ := Cert.FiniteInputs.reals_of_pre m hpre c
    rw [Cert.ReferenceIdeal.Result.res_eq, a0, a1, a2, a3, a4, a5, a6, a7]
    funext i
    obtain ⟨n, k, rfl⟩ : ∃ (n : Fin 100000) (k : Fin 32), i = ix2 n k := ⟨i 0, i 1, eq_ix2 i⟩
    show Cert.ReferenceIdeal.Result.outR _ _ _ _ _ _ _ _ (ix2 n k) = Cert.KernelIdeal.Result.outK _ _ _ _ _ _ _ _ (ix2 n k)
    rw [Cert.ReferenceIdeal.Result.outR_apply, Cert.KernelIdeal.Result.outK_apply]
    exact (Cert.Sage.out_eq (Cert.KernelIdeal.Result.rowK _) (Cert.KernelIdeal.Result.landsK _) _ _ _ _ _ _ _ r0 r2 r4 r3 r5 n k).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
